-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x2048x1024 .f32) (main_arg1 : FVec F S3072x1024 .f32) (main_arg2 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S4x2048x1024 : Shape := ⟨3, ![4, 2048, 1024]⟩
abbrev S3072x1024 : Shape := ⟨2, ![3072, 1024]⟩
abbrev S1024x1024 : Shape := ⟨2, ![1024, 1024]⟩
abbrev S8192x1024 : Shape := ⟨2, ![8192, 1024]⟩
abbrev S8192x3072 : Shape := ⟨2, ![8192, 3072]⟩
abbrev S256x1024 : Shape := ⟨2, ![256, 1024]⟩
abbrev S256x3072 : Shape := ⟨2, ![256, 3072]⟩
abbrev S4x2048x3072 : Shape := ⟨3, ![4, 2048, 3072]⟩
abbrev S1x512x128 : Shape := ⟨3, ![1, 512, 128]⟩
abbrev S1x2048x128 : Shape := ⟨3, ![1, 2048, 128]⟩
abbrev S512x128 : Shape := ⟨2, ![512, 128]⟩
abbrev S2048x128 : Shape := ⟨2, ![2048, 128]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S1x512x64 : Shape := ⟨3, ![1, 512, 64]⟩

abbrev nBuf : Space → Nat
  | .hbm => 10
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S1024x1024, .f32⟩
  | .hbm, ⟨3, _⟩ => ⟨S8192x1024, .f32⟩
  | .hbm, ⟨4, _⟩ => ⟨S8192x3072, .bf16⟩
  | .hbm, ⟨5, _⟩ => ⟨S4x2048x3072, .bf16⟩
  | .hbm, ⟨6, _⟩ => ⟨S4x2048x1024, .bf16⟩
  | .hbm, ⟨7, _⟩ => ⟨S8192x1024, .bf16⟩
  | .hbm, ⟨8, _⟩ => ⟨S8192x1024, .f32⟩
  | .hbm, ⟨9, _⟩ => ⟨S4x2048x1024, .f32⟩
  | .local _ .vmem, ⟨0, _⟩ => ⟨S256x1024, .f32⟩
  | .local _ .vmem, ⟨1, _⟩ => ⟨S256x1024, .f32⟩
  | .local _ .vmem, ⟨2, _⟩ => ⟨S3072x1024, .f32⟩
  | .local _ .vmem, ⟨3, _⟩ => ⟨S256x3072, .bf16⟩
  | .local _ .vmem, ⟨4, _⟩ => ⟨S256x3072, .bf16⟩
  | .local _ .vmem, ⟨5, _⟩ => ⟨S1x512x128, .bf16⟩
  | .local _ .vmem, ⟨6, _⟩ => ⟨S1x512x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x512x128, .bf16⟩
  | .local _ .vmem, ⟨12, _⟩ => ⟨S1x512x128, .bf16⟩
  | .local _ .vmem, ⟨13, _⟩ => ⟨S256x1024, .bf16⟩
  | .local _ .vmem, ⟨14, _⟩ => ⟨S256x1024, .bf16⟩
  | .local _ .vmem, ⟨15, _⟩ => ⟨S1024x1024, .f32⟩
  | .local _ .vmem, ⟨16, _⟩ => ⟨S256x1024, .f32⟩
  | .local _ .vmem, ⟨17, _⟩ => ⟨S256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 8, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S4x2048x1024_S8192x1024 : S4x2048x1024.ShapeCasts S8192x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  bitsLt_bf16_f32 : FTy.bits .bf16 < FTy.bits .f32
  inb_S3072x1024_S3072x1024_0_0 : ∀ a, (![0, 0] : Fin 2 → Nat) a + S3072x1024.size a ≤ S3072x1024.size a
  h_S3072x1024 : 0 < S3072x1024.numel
  inb_S256x3072_S256x3072_0_0 : ∀ a, (![0, 0] : Fin 2 → Nat) a + S256x3072.size a ≤ S256x3072.size a
  h_S256x3072 : 0 < S256x3072.numel
  packedbf16_S256x3072_S256x3072_0_0 : (Rect.unit (s := S256x3072) ![0, 0] S256x3072.size inb_S256x3072_S256x3072_0_0).PackedRows (EltTy.packing .bf16)
  shapeCasts_S8192x3072_S4x2048x3072 : S8192x3072.ShapeCasts S4x2048x3072
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S512x128_o0_0_S512x64 : S512x128.Slices ![0, 0] S512x64
  slices_S2048x128_o0_0_S2048x64 : S2048x128.Slices ![0, 0] S2048x64
  reduces_S512x2048_S512 : S512x2048.Reduces [1] S512
  shapeCasts_S512_S512x1 : S512.ShapeCasts S512x1
  broadcasts_S512x1_S512x2048 : S512x1.Broadcasts S512x2048
  inb_S1x512x128_S1x512x64_0_0_0 : ∀ a, (![0, 0, 0] : Fin 3 → Nat) a + S1x512x64.size a ≤ S1x512x128.size a
  h_S1x512x64 : 0 < S1x512x64.numel
  shapeCasts_S1x512x64_S512x64 : S1x512x64.ShapeCasts S512x64
  shapeCasts_S512x64_S1x512x64 : S512x64.ShapeCasts S1x512x64
  packedbf16_S1x512x128_S1x512x64_0_0_0 : (Rect.unit (s := S1x512x128) ![0, 0, 0] S1x512x64.size inb_S1x512x128_S1x512x64_0_0_0).PackedRows (EltTy.packing .bf16)
  slices_S512x128_o0_64_S512x64 : S512x128.Slices ![0, 64] S512x64
  slices_S2048x128_o0_64_S2048x64 : S2048x128.Slices ![0, 64] S2048x64
  inb_S1x512x128_S1x512x64_0_0_64 : ∀ a, (![0, 0, 64] : Fin 3 → Nat) a + S1x512x64.size a ≤ S1x512x128.size a
  packedbf16_S1x512x128_S1x512x64_0_0_64 : (Rect.unit (s := S1x512x128) ![0, 0, 64] S1x512x64.size inb_S1x512x128_S1x512x64_0_0_64).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S8192x1024_S4x2048x1024 : S8192x1024.ShapeCasts S4x2048x1024
  dot_S256x1024_S3072x1024_S256x3072_1_1_0_0_n_n_wf : DotDims.WF S256x1024 S3072x1024 S256x3072 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .f32 = 32 ∨ (Rect.block (s := S3072x1024) S3072x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x3072.size a ≤ S8192x3072.size a
  hwx0_2 : ∀ i : grid0.Coords, EltTy.bits .bf16 = 32 ∨ (Rect.block (s := S8192x3072) S256x3072.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S4x2048x3072.size a
  hwx1_0 : ∀ i : grid1.Coords, EltTy.bits .bf16 = 32 ∨ (Rect.block (s := S4x2048x3072) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S4x2048x3072.size a
  hwx1_1 : ∀ i : grid1.Coords, EltTy.bits .bf16 = 32 ∨ (Rect.block (s := S4x2048x3072) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S4x2048x3072.size a
  hwx1_2 : ∀ i : grid1.Coords, EltTy.bits .bf16 = 32 ∨ (Rect.block (s := S4x2048x3072) S1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x128.size a ≤ S4x2048x1024.size a
  hwx1_3 : ∀ i : grid1.Coords, EltTy.bits .bf16 = 32 ∨ (Rect.block (s := S4x2048x1024) S1x512x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x1024.size a ≤ S8192x1024.size a
  hwx2_0 : ∀ i : grid2.Coords, EltTy.bits .bf16 = 32 ∨ (Rect.block (s := S8192x1024) S256x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x1024.size a ≤ S8192x1024.size a
  hwx2_2 : ∀ i : grid2.Coords, EltTy.bits .f32 = 32 ∨ (Rect.block (s := S8192x1024) S256x1024.size (cc2_transform_2 i) (hinb2_2 i)).WholeWords (EltTy.packing .f32)

variable [Facts₀]

def dot_S256x1024_S3072x1024_S256x3072_1_1_0_0_n_n : DotDims S256x1024 S3072x1024 S256x3072 where
  lhsContracting := [1]
  rhsContracting := [1]
  lhsNonContracting := [0]
  rhsNonContracting := [0]
  lhsBatch := []
  rhsBatch := []
  wf := dot_S256x1024_S3072x1024_S256x3072_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v4) S256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5) S256x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S1024x1024 : Shape := ⟨2, ![1024, 1024]⟩
abbrev S4x2048x3072 : Shape := ⟨3, ![4, 2048, 3072]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 35
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S1024x1024, .f32⟩
  | .hbm, ⟨3, _⟩ => ⟨S4x2048x3072, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x16x64, .f32⟩
  | .hbm, ⟨8, _⟩ => ⟨S4x16x2048x64, .f32⟩
  | .hbm, ⟨9, _⟩ => ⟨S4x2048x16x64, .f32⟩
  | .hbm, ⟨10, _⟩ => ⟨S4x16x2048x64, .f32⟩
  | .hbm, ⟨11, _⟩ => ⟨S4x2048x16x64, .f32⟩
  | .hbm, ⟨12, _⟩ => ⟨S4x16x2048x64, .f32⟩
  | .hbm, ⟨13, _⟩ => ⟨S4x16x2048x2048, .f32⟩
  | .hbm, ⟨14, _⟩ => ⟨S_, .f32⟩
  | .hbm, ⟨15, _⟩ => ⟨S4x16x2048x2048, .f32⟩
  | .hbm, ⟨16, _⟩ => ⟨S4x16x2048x2048, .f32⟩
  | .hbm, ⟨17, _⟩ => ⟨S_, .f32⟩
  | .hbm, ⟨18, _⟩ => ⟨S4x16x2048, .f32⟩
  | .hbm, ⟨19, _⟩ => ⟨S_, .f32⟩
  | .hbm, ⟨20, _⟩ => ⟨S4x16x2048, .f32⟩
  | .hbm, ⟨21, _⟩ => ⟨S4x16x2048, .f32⟩
  | .hbm, ⟨22, _⟩ => ⟨S4x16x2048x1, .f32⟩
  | .hbm, ⟨23, _⟩ => ⟨S4x16x2048x2048, .f32⟩
  | .hbm, ⟨24, _⟩ => ⟨S4x16x2048x2048, .f32⟩
  | .hbm, ⟨25, _⟩ => ⟨S4x16x2048x2048, .f32⟩
  | .hbm, ⟨26, _⟩ => ⟨S_, .f32⟩
  | .hbm, ⟨27, _⟩ => ⟨S4x16x2048, .f32⟩
  | .hbm, ⟨28, _⟩ => ⟨S4x16x2048x1, .f32⟩
  | .hbm, ⟨29, _⟩ => ⟨S4x16x2048x2048, .f32⟩
  | .hbm, ⟨30, _⟩ => ⟨S4x16x2048x2048, .f32⟩
  | .hbm, ⟨31, _⟩ => ⟨S4x16x2048x64, .f32⟩
  | .hbm, ⟨32, _⟩ => ⟨S4x2048x16x64, .f32⟩
  | .hbm, ⟨33, _⟩ => ⟨S4x2048x1024, .f32⟩
  | .hbm, ⟨34, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]

class Facts₀ : Prop where
  slices_S4x2048x3072_S4x2048x1024_0_0_0 : S4x2048x3072.Slices ![0, 0, 0] S4x2048x1024
  slices_S4x2048x3072_S4x2048x1024_0_0_1024 : S4x2048x3072.Slices ![0, 0, 1024] S4x2048x1024
  slices_S4x2048x3072_S4x2048x1024_0_0_2048 : S4x2048x3072.Slices ![0, 0, 2048] S4x2048x1024
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S3072x1024_S4x2048x3072_2_1_01_0_n_n_wf : DotDims.WF S4x2048x1024 S3072x1024 S4x2048x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.KReg0.lean ====
/-
  The first projection's region, at the buffer contents `V` it is entered with.

  Each of its 32 grid points stages a block of 256 activation rows and the whole weight, and stores one block of 256
  result rows: the body's one store covers the output block, so after the body the output's staging buffer holds the
  product of the two input blocks (the body's arithmetic as one pure term), and the two input buffers are as found.
  An input buffer holds its array's block at the point whether or not it was fetched there: the weight, whose block
  never moves, is fetched once.
-/
import proofs.«122617_j58394375357204_2_alg».proof.Proof.Gen.Kernel.Launch
import proofs.«122617_j58394375357204_2_alg».proof.Proof.Gen.Kernel.Skeleton
import proofs.«122617_j58394375357204_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_a : Rect S256x1024 := Rect.unit (s := S256x1024) ![0, 0] S256x1024.size inb_S256x1024_S256x1024_0_0
abbrev r0_b : Rect S3072x1024 := Rect.unit (s := S3072x1024) ![0, 0] S3072x1024.size inb_S3072x1024_S3072x1024_0_0
abbrev r0_o : Rect S256x3072 := Rect.unit (s := S256x3072) ![0, 0] S256x3072.size inb_S256x3072_S256x3072_0_0

/-- The output's staging buffer after the body, from the two input blocks: the one store as a piece. -/
def out0_2 (x0 : Vec F S256x1024 .f32) (x1 : Vec F S3072x1024 .f32) : Vec F S256x3072 .bf16 :=
  View.canon [⟨r0_o, k0_pay1 (View.ld x0 r0_a) (View.ld x1 r0_b)⟩]

/-- The store covers the buffer. -/
theorem cover0_2 (p0 : Vec F S256x3072 .bf16) (y : S256x3072.Idx) :
    ∃ pc ∈ ([⟨r0_o, p0⟩] : List (View.Piece (Elt F) S256x3072 .bf16)), y ∈ pc.1.set :=
  View.cover_of_tiled [⟨r0_o, p0⟩] S256x3072.size (by rfl) y

/-! ## The body's triple -/

set_option maxHeartbeats 1000000 in
/-- The body on whole staging memrefs, the inputs' at read contents `x0`, `x1` and the output's at anything, runs to the
    continuation holding the inputs' as they were and the output's at `out0_2` of them. -/
theorem sound_kernel0 (c : Dev nD) (E : Set ℕ) (i : grid0.Coords) (arg1 : Memref sig .tc .vmem S256x1024 .f32) (harg1 : arg1.IsWhole)
    (arg2 : Memref sig .tc .vmem S3072x1024 .f32) (harg2 : arg2.IsWhole) (arg3 : Memref sig .tc .vmem S256x3072 .bf16) (harg3 : arg3.IsWhole)
    (x0 : Vec F S256x1024 .f32) (x1 : Vec F S3072x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_bt_kernel i arg1 harg1 arg2 harg2 arg3 harg3) K := by
  simp only [cc0__matmul_bt_kernel_eq_skeleton]; unfold cc0__matmul_bt_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- The region's proof data on core `c`: the arrays as found; after the body at point `t` each input's buffer at its
    block and the output's at `out0_2` of the input blocks; between points only the scoped buffers no window stages and
    the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KReg1.lean ====
/-
  The attention region, at the buffer contents `V` it is entered with.

  Each of its 128 grid points (batch, head pair, query tile) stages a block of 512 query rows and the blocks of all 2048
  key and value rows, each 128 lanes wide, out of ONE array: the three input windows read three column ranges of the
  projected activations. The body stores the output block in two halves of 64 lanes, one per head of the pair; the two
  stores tile the block, so after the body the output's staging buffer holds the two heads' results side by side (each the
  body's arithmetic as one pure term of the three input blocks), and the input buffers are as found. The key and value
  blocks do not move along the query-tile axis and are fetched once per four points; an input buffer holds its array's
  block at the point whether or not it was fetched there. Since the three input windows read one array, each holds it
  at a share of its own: a half, a quarter and a quarter.
-/
import proofs.«122617_j58394375357204_2_alg».proof.Proof.Gen.Kernel.Launch
import proofs.«122617_j58394375357204_2_alg».proof.Proof.Gen.Kernel.Skeleton
import proofs.«122617_j58394375357204_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_q : Rect S1x512x128 := Rect.unit (s := S1x512x128) ![0, 0, 0] S1x512x128.size inb_S1x512x128_S1x512x128_0_0_0
abbrev r1_k : Rect S1x2048x128 := Rect.unit (s := S1x2048x128) ![0, 0, 0] S1x2048x128.size inb_S1x2048x128_S1x2048x128_0_0_0
abbrev r1_o0 : Rect S1x512x128 := Rect.unit (s := S1x512x128) ![0, 0, 0] S1x512x64.size inb_S1x512x128_S1x512x64_0_0_0
abbrev r1_o1 : Rect S1x512x128 := Rect.unit (s := S1x512x128) ![0, 0, 64] S1x512x64.size inb_S1x512x128_S1x512x64_0_0_64

/-- The output's staging buffer after the body, from the three input blocks: its two stores as pieces, last first. -/
def out1_3 (x0 : Vec F S1x512x128 .bf16) (x1 : Vec F S1x2048x128 .bf16) (x2 : Vec F S1x2048x128 .bf16) : Vec F S1x512x128 .bf16 :=
  View.canon [⟨r1_o1, k1_pay1 (k1_pay6 (View.ld x2 r1_k)) (k1_pay7 (View.ld x0 r1_q) (View.ld x1 r1_k)) (k1_pay8 (View.ld x0 r1_q) (View.ld x1 r1_k))⟩,
    ⟨r1_o0, k1_pay5 (View.ld x0 r1_q) (View.ld x1 r1_k) (View.ld x2 r1_k)⟩]

/-- The two stores tile the buffer. -/
theorem cover1_3 (p0 p1 : Vec F S1x512x64 .bf16) (y : S1x512x128.Idx) :
    ∃ pc ∈ ([⟨r1_o1, p0⟩, ⟨r1_o0, p1⟩] : List (View.Piece (Elt F) S1x512x128 .bf16)), y ∈ pc.1.set :=
  View.cover_of_tiled [⟨r1_o1, p0⟩, ⟨r1_o0, p1⟩] S1x512x64.size (by rfl) y

/-! ## The body's triple -/

set_option maxHeartbeats 4000000 in
theorem sound_kernel1 (c : Dev nD) (E : Set ℕ) (i : grid1.Coords) (arg3 : Memref sig .tc .vmem S1x512x128 .bf16) (harg3 : arg3.IsWhole)
    (arg4 : Memref sig .tc .vmem S1x2048x128 .bf16) (harg4 : arg4.IsWhole) (arg5 : Memref sig .tc .vmem S1x2048x128 .bf16) (harg5 : arg5.IsWhole)
    (arg6 : Memref sig .tc .vmem S1x512x128 .bf16) (harg6 : arg6.IsWhole)
    (x0 : Vec F S1x512x128 .bf16) (x1 : Vec F S1x2048x128 .bf16) (x2 : Vec F S1x2048x128 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out1_3 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _ _)

/-! ## The proof data -/

/-- The three shares the input windows hold their one array at. -/
abbrev shQ : PosShare TreeShare := (fullShare : PosShare TreeShare).left
abbrev shK : PosShare TreeShare := (fullShare : PosShare TreeShare).right.left
abbrev shV : PosShare TreeShare := (fullShare : PosShare TreeShare).right.right

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => shQ
    | ⟨1, _⟩ => shK
    | ⟨2, _⟩ => shV
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KReg2.lean ====
/-
  The output projection's region, at the buffer contents `V` it is entered with.

  Each of its 32 grid points stages a block of 256 mixed-head rows and the whole weight, and stores one block of 256
  result rows: the body's one store covers the output block, so after the body the output's staging buffer holds the
  product of the two input blocks (the body's arithmetic as one pure term), and the two input buffers are as found.
  An input buffer holds its array's block at the point whether or not it was fetched there: the weight, whose block
  never moves, is fetched once.
-/
import proofs.«122617_j58394375357204_2_alg».proof.Proof.Gen.Kernel.Launch
import proofs.«122617_j58394375357204_2_alg».proof.Proof.Gen.Kernel.Skeleton
import proofs.«122617_j58394375357204_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_a : Rect S256x1024 := Rect.unit (s := S256x1024) ![0, 0] S256x1024.size inb_S256x1024_S256x1024_0_0
abbrev r2_b : Rect S1024x1024 := Rect.unit (s := S1024x1024) ![0, 0] S1024x1024.size inb_S1024x1024_S1024x1024_0_0
abbrev r2_o : Rect S256x1024 := Rect.unit (s := S256x1024) ![0, 0] S256x1024.size inb_S256x1024_S256x1024_0_0

/-- The output's staging buffer after the body, from the two input blocks: the one store as a piece. -/
def out2_2 (x0 : Vec F S256x1024 .bf16) (x1 : Vec F S1024x1024 .f32) : Vec F S256x1024 .f32 :=
  View.canon [⟨r2_o, k2_pay1 (View.ld x0 r2_a) (View.ld x1 r2_b)⟩]

/-- The store covers the buffer. -/
theorem cover2_2 (p0 : Vec F S256x1024 .f32) (y : S256x1024.Idx) :
    ∃ pc ∈ ([⟨r2_o, p0⟩] : List (View.Piece (Elt F) S256x1024 .f32)), y ∈ pc.1.set :=
  View.cover_of_tiled [⟨r2_o, p0⟩] S256x1024.size (by rfl) y

/-! ## The body's triple -/

set_option maxHeartbeats 1000000 in
/-- The body on whole staging memrefs, the inputs' at read contents `x0`, `x1` and the output's at anything, runs to the
    continuation holding the inputs' as they were and the output's at `out2_2` of them. -/
theorem sound_kernel2 (c : Dev nD) (E : Set ℕ) (i : grid2.Coords) (arg1 : Memref sig .tc .vmem S256x1024 .bf16) (harg1 : arg1.IsWhole)
    (arg2 : Memref sig .tc .vmem S1024x1024 .f32) (harg2 : arg2.IsWhole) (arg3 : Memref sig .tc .vmem S256x1024 .f32) (harg3 : arg3.IsWhole)
    (x0 : Vec F S256x1024 .bf16) (x1 : Vec F S1024x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__matmul_bt_kernel i arg1 harg1 arg2 harg2 arg3 harg3) K := by
  simp only [cc2__matmul_bt_kernel_eq_skeleton]; unfold cc2__matmul_bt_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The proof data -/

/-- The region's proof data on core `c`: the arrays as found; after the body at point `t` each input's buffer at its
    block and the output's at `out2_2` of the input blocks; between points only the scoped buffers no window stages and
    the generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KShares1.lean ====
/-
  One array read through three windows: dealing its buffer out and putting it back.

  The attention region's three input windows read one array. When the region is entered the array's buffer is held
  whole, once; reading needs only a share, so the buffer is dealt out to the three windows at a half, a quarter and a
  quarter, beside the output's array held whole. When the region is left the three shares, still at the contents they
  were dealt at, make the whole buffer again. Both directions, and the split of a core's unscoped buffers into the
  two buffers behind the region's arrays and the rest.
-/
import proofs.«122617_j58394375357204_2_alg».proof.Proof.Gen.Kernel.Launch
import proofs.«122617_j58394375357204_2_alg».proof.Proof.Gen.Kernel.Skeleton
import proofs.«122617_j58394375357204_2_alg».proof.Proof.Gen.Kernel.Points
import proofs.«122617_j58394375357204_2_alg».proof.Proof.KReg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

theorem arrImage1 : (Finset.univ.image (Pipeline.arrRef spec1) : Finset (Ref sig .tc)) = {main_v2, main_v3} := by decide

theorem split1 (c : Dev nD) :
    (Pipeline.arrBufs (Ix := Unit) (Name := ℕ) (U := UR sig nD τ) (Lvl := ℕ) spec1 c (V c) : sProp 𝕄) ⊢ (dat1 V c).arrays (dat1 V c).A := by
  unfold Pipeline.arrBufs Dat.arrays
  rw [arrImage1, bigSep_insert (by decide), bigSep_singleton, bigSep_W1]
  rw [(arr_whole1 0).set_eq_univ, (arr_whole1 3).set_eq_univ]
  show iprop(((c : Thread nD τ).loc main_v2 ↦{fullShare} V c main_v2) ∗ ((c : Thread nD τ).loc main_v3 ↦{fullShare} V c main_v3)) ⊢ iprop(((c : Thread nD τ).loc main_v2 ↦{shQ} V c main_v2) ∗ ((c : Thread nD τ).loc main_v2 ↦{shK} V c main_v2)
    ∗ ((c : Thread nD τ).loc main_v2 ↦{shV} V c main_v2) ∗ ((c : Thread nD τ).loc main_v3 ↦{fullShare} V c main_v3))
  iintro ⟨H2, H3⟩
  ihave H := (pointsTo_share (PosShare.mem_left_op_right fullShare)).1 $$ H2
  icases H with ⟨HQ, HR⟩
  ihave H' := (pointsTo_share (PosShare.mem_left_op_right (fullShare : PosShare TreeShare).right)).1 $$ HR
  icases H' with ⟨HK, HV⟩
  isplitl [HQ]; · iexact HQ
  isplitl [HK]; · iexact HK
  isplitl [HV]; · iexact HV
  iexact H3

/-- The reverse, at any contents `G` of the output's array. -/
theorem join1 (c : Dev nD) (V' : (b : Ref sig .tc) → Buf (Elt F) ((c : Thread nD τ).loc b))
    (G : (w : Fin cfg1.W) → Buf (Elt F) ((cfg1.win w).arr.view.loc (c.tc : Thread nD τ)))
    (h0 : G 0 = V' main_v2) (h1 : G 1 = V' main_v2) (h2 : G 2 = V' main_v2) (h3 : G 3 = V' main_v3) :
    (dat1 V c).arrays G ⊢ (Pipeline.arrBufs (Ix := Unit) (Name := ℕ) (U := UR sig nD τ) (Lvl := ℕ) spec1 c V' : sProp 𝕄) := by
  unfold Pipeline.arrBufs Dat.arrays
  rw [arrImage1, bigSep_insert (by decide), bigSep_singleton, bigSep_W1]
  rw [(arr_whole1 0).set_eq_univ, (arr_whole1 3).set_eq_univ, h0, h1, h2, h3]
  show iprop(((c : Thread nD τ).loc main_v2 ↦{shQ} V' main_v2) ∗ ((c : Thread nD τ).loc main_v2 ↦{shK} V' main_v2)
    ∗ ((c : Thread nD τ).loc main_v2 ↦{shV} V' main_v2) ∗ ((c : Thread nD τ).loc main_v3 ↦{fullShare} V' main_v3)) ⊢ iprop(((c : Thread nD τ).loc main_v2 ↦{fullShare} V' main_v2) ∗ ((c : Thread nD τ).loc main_v3 ↦{fullShare} V' main_v3))
  iintro ⟨HQ, HK, HV, H3⟩
  ihave HR := (pointsTo_share (PosShare.mem_left_op_right (fullShare : PosShare TreeShare).right)).2 $$ [HK HV]
  · isplitl [HK]; · iexact HK
    iexact HV
  ihave H2 := (pointsTo_share (PosShare.mem_left_op_right fullShare)).2 $$ [HQ HR]
  · isplitl [HQ]; · iexact HQ
    iexact HR
  isplitl [H2]; · iexact H2
  iexact H3

/-- A core's unscoped buffers are the two buffers behind the region's arrays and the rest. -/
theorem unscopedBufs_split1 (c : Dev nD) (V' : (b : Ref sig .tc) → Buf (Elt F) ((c : Thread nD τ).loc b)) :
    (unscopedBufs c V' : sProp 𝕄)
      = iprop((Pipeline.arrBufs (Ix := Unit) (Name := ℕ) (U := UR sig nD τ) (Lvl := ℕ) spec1 c V' : sProp 𝕄)
          ∗ Pipeline.unscopedRest (Ix := Unit) (Name := ℕ) (U := UR sig nD τ) (Lvl := ℕ) spec1 c V') := by
  have hA : Finset.univ.image (Pipeline.arrRef spec1) ⊆ Finset.univ.filter fun b : Ref sig .tc => ¬ b.isScoped := by decide
  unfold unscopedBufs Pipeline.unscopedRest Pipeline.arrBufs
  rw [bigSep_sdiff_split hA]
  rfl

end Cert.Kernel.Hand

end
-- ==== Proof.KRunA.lean ====
/-
  The run of the whole program: the three regions and the four reshapes between them, from the launch to the return.

  The buffer contents at every boundary are a fold from the launch memory: a reshape writes its result, a region leaves
  its output array at what its write-backs make of it (the blocks the grid points stored, laid over the entry contents)
  and everything else as it found it. Each region is entered from "every unscoped buffer at the boundary's contents"
  and left in the same form at the next boundary's; the first and third split their distinct arrays out of the unscoped
  buffers and put them back, the second deals its shared input array out among its three input windows and collects it
  again. At the end every unscoped buffer is read off the last boundary's contents: the three arguments are as launched,
  and the result buffer holds the last reshape of the third region's output array.
-/
import proofs.«122617_j58394375357204_2_alg».proof.Proof.Gen.Kernel.Launch
import proofs.«122617_j58394375357204_2_alg».proof.Proof.Gen.Kernel.Skeleton
import proofs.«122617_j58394375357204_2_alg».proof.Proof.Gen.Kernel.Points
import proofs.«122617_j58394375357204_2_alg».proof.Proof.Gen.Kernel.Regions
import proofs.«122617_j58394375357204_2_alg».proof.Proof.KReg0
import proofs.«122617_j58394375357204_2_alg».proof.Proof.KReg1
import proofs.«122617_j58394375357204_2_alg».proof.Proof.KReg2
import proofs.«122617_j58394375357204_2_alg».proof.Proof.KShares1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At the attention region's exit: its output array at what the write-backs leave, everything else as entered. -/
def W4 (c : Dev nD) : Valuation τ sig (Elt F) :=
  Function.update (W3 m ρ c) (Proc.devRef .tc main_v3) ((dat1 (V3 m ρ) c).arrAt 3 cfg1.N)
theorem W4_out (c : Dev nD) : W4 m ρ c (Proc.devRef .tc main_v3) = (dat1 (V3 m ρ) c).arrAt 3 cfg1.N := by
  unfold W4; exact Function.update_self ..
theorem W4_of_ne (c : Dev nD) (b : Ref sig .tc) (hb : b ≠ main_v3) :
    W4 m ρ c (Proc.devRef .tc b) = W3 m ρ c (Proc.devRef .tc b) := by
  unfold W4; exact Function.update_of_ne (StableHlo.devRef_ne_of_ne hb) ..
abbrev V4 : (c : Dev nD) → (b : Ref sig .tc) → Buf (Elt F) ((c : Thread nD τ).loc b) := fun c b => W4 m ρ c b

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps3 (W6 m ρ c)

/-! ## The arguments end as launched -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_writes_sub hostOps0 _ hostOps0_writes (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps3 _ hostOps3_writes (by decide)
    _ = W5 m ρ c (Proc.devRef .tc main_arg2) := (W6_arr m ρ c 1).trans (((dat2 (V5 m ρ) c).arrAt_in 1 rfl _).trans (A_eq2 (V5 m ρ) c 1))
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-! ## The proof data family and the thread state -/

abbrev adm1 : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm1 p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.KRunB.lean ====
/-
  The three regions as segments of the program, and the launch.

  Each region's record: its windows' layout, no semaphore of its own, its body obligation, and how the thread state
  "every unscoped buffer at the boundary's contents, the generator register, nothing owed" enters the region's invariant
  and comes back at the next boundary's contents. The launch then runs the seven segments (reshape, region, reshape,
  region, reshape, region, reshape) in order and reads every unscoped buffer off the last boundary's contents.
-/
import proofs.«122617_j58394375357204_2_alg».proof.Proof.Gen.Kernel.Launch
import proofs.«122617_j58394375357204_2_alg».proof.Proof.Gen.Kernel.Skeleton
import proofs.«122617_j58394375357204_2_alg».proof.Proof.Gen.Kernel.Points
import proofs.«122617_j58394375357204_2_alg».proof.Proof.KRunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm1 (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm1 (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm1 (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the attention region's arrays hold when it is left, against the next boundary's contents: the three input
    windows' one array as entered, the output's array at what the write-backs leave. -/
theorem exit1_in (c : Dev nD) (w : Fin cfg1.W) (hw : (cfg1.win w).isOut = false) (hr : Pipeline.arrRef spec1 w = main_v2) :
    (dat1 (V3 m ρ) c).arrAt w cfg1.N = (dat1 (V3 m ρ) c).A w := (dat1 (V3 m ρ) c).arrAt_in w hw _

set_option backward.isDefEq.respectTransparency.types false in
def reg1 : Pipeline.RegionSeg (pcfgs (F := F)) adm1 (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hs : (StableHlo.held (c : Thread nD τ) (Pipeline.ucRefs τ sig) (W3 m ρ c) : sProp 𝕄)
        ⊢ iprop((pdats m ρ 1 c).arrays (pdats m ρ 1 c).A
            ∗ Pipeline.unscopedRest (Ix := Unit) (Name := ℕ) (U := UR sig nD τ) (Lvl := ℕ) spec1 c (V3 m ρ c)) := by
      rw [← Pipeline.unscopedBufs_held (Ix := Unit) (Name := ℕ) (U := UR sig nD τ) (Lvl := ℕ) c (W3 m ρ c)]
      rw [show (unscopedBufs c (fun b => W3 m ρ c b) : sProp 𝕄) = unscopedBufs c (V3 m ρ c) from rfl, unscopedBufs_split1 c (V3 m ρ c)]
      exact sep_mono (split1 (V3 m ρ) c) .rfl
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hj : iprop((pdats m ρ 1 c).arrays ((pdats m ρ 1 c).arrAt · cfg1.N)
          ∗ Pipeline.unscopedRest (Ix := Unit) (Name := ℕ) (U := UR sig nD τ) (Lvl := ℕ) spec1 c (V3 m ρ c))
        ⊢ (StableHlo.held (c : Thread nD τ) (Pipeline.ucRefs τ sig) (W4 m ρ c) : sProp 𝕄) := by
      rw [← Pipeline.unscopedBufs_held (Ix := Unit) (Name := ℕ) (U := UR sig nD τ) (Lvl := ℕ) c (W4 m ρ c)]
      rw [show (unscopedBufs c (fun b => W4 m ρ c b) : sProp 𝕄) = unscopedBufs c (V4 m ρ c) from rfl, unscopedBufs_split1 c (V4 m ρ c)]
      refine sep_mono ?_ (Entails.of_eq ?_)
      · exact join1 (V3 m ρ) c (V4 m ρ c) ((dat1 (V3 m ρ) c).arrAt · cfg1.N)
          (((dat1 (V3 m ρ) c).arrAt_in 0 rfl _).trans ((A_eq1 (V3 m ρ) c 0).trans (W4_of_ne m ρ c main_v2 (by decide)).symm))
          (((dat1 (V3 m ρ) c).arrAt_in 1 rfl _).trans ((A_eq1 (V3 m ρ) c 1).trans (W4_of_ne m ρ c main_v2 (by decide)).symm))
          (((dat1 (V3 m ρ) c).arrAt_in 2 rfl _).trans ((A_eq1 (V3 m ρ) c 2).trans (W4_of_ne m ρ c main_v2 (by decide)).symm))
          (W4_out m ρ c).symm
      · unfold Pipeline.unscopedRest
        exact bigSep_congr fun b hb => by
          rw [show V4 m ρ c b = V3 m ρ c b from W4_of_ne m ρ c b (fun e => (Finset.mem_sdiff.mp hb).2 (e ▸ Finset.mem_image.mpr ⟨3, Finset.mem_univ _, rfl⟩))]
    iintro ⟨Ha, HO, HY, Hrest⟩
    imodintro
    isplitl [Ha Hrest]
    · iapply hj; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm1 (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm1 (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm1 (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm1 (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

theorem main_run (c : Dev nD) : main (F := F) c = Pipeline.Seg.run (segs m ρ) := (main_chain c).trans (by chain_rfl)

/-- The last thread state without the `owes`. -/
abbrev Tₙ (c : Dev nD) : sProp 𝕄 := iprop(StableHlo.held (c : Thread nD τ) (Pipeline.ucRefs τ sig) (W7 m ρ c) ∗ ∃ r, prngReg c r)

set_option backward.isDefEq.respectTransparency.types false in
/-- From any memory with zero counters every weakly fair execution of the program terminates, nothing faulting, and in
    every final state the result buffer holds the last boundary's contents of it and the three arguments are as
    launched. -/
theorem run_main : θ_run defs (onTc (τ := τ) (main (F := F))) ⟨m, fun _ => 0, ρ⟩ (fun r => ∀ c : Dev nD,
      r.2.mem ((c.tc : Thread nD τ).loc main_v6) = W7 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm1 (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v6 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c)⟩)

end Cert.Kernel.Hand

end
-- ==== Proof.Reg0.lean ====
/-
  The first projection's region, at the buffer contents `V` it is entered with.

  Each of its 32 grid points stages a block of 256 activation rows and the whole weight, and stores one block of 256
  result rows: the body's one store covers the output block, so after the body the output's staging buffer holds the
  product of the two input blocks (the body's arithmetic as one pure term), and the two input buffers are as found.
  An input buffer holds its array's block at the point whether or not it was fetched there: the weight, whose block
  never moves, is fetched once.
-/
import proofs.«122617_j58394375357204_2_alg».proof.Proof.Gen.KernelIdeal.Launch
import proofs.«122617_j58394375357204_2_alg».proof.Proof.Gen.KernelIdeal.Skeleton
import proofs.«122617_j58394375357204_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_a : Rect S256x1024 := Rect.unit (s := S256x1024) ![0, 0] S256x1024.size inb_S256x1024_S256x1024_0_0
abbrev r0_b : Rect S3072x1024 := Rect.unit (s := S3072x1024) ![0, 0] S3072x1024.size inb_S3072x1024_S3072x1024_0_0
abbrev r0_o : Rect S256x3072 := Rect.unit (s := S256x3072) ![0, 0] S256x3072.size inb_S256x3072_S256x3072_0_0

/-- The output's staging buffer after the body, from the two input blocks: the one store as a piece. -/
def out0_2 (x0 : Vec F S256x1024 .f32) (x1 : Vec F S3072x1024 .f32) : Vec F S256x3072 .bf16 :=
  View.canon [⟨r0_o, k0_pay1 (View.ld x0 r0_a) (View.ld x1 r0_b)⟩]

/-- The store covers the buffer. -/
theorem cover0_2 (p0 : Vec F S256x3072 .bf16) (y : S256x3072.Idx) :
    ∃ pc ∈ ([⟨r0_o, p0⟩] : List (View.Piece (Elt F) S256x3072 .bf16)), y ∈ pc.1.set :=
  View.cover_of_tiled [⟨r0_o, p0⟩] S256x3072.size (by rfl) y

/-! ## The body's triple -/

set_option maxHeartbeats 1000000 in
/-- The body on whole staging memrefs, the inputs' at read contents `x0`, `x1` and the output's at anything, runs to the
    continuation holding the inputs' as they were and the output's at `out0_2` of them. -/
theorem sound_kernel0 (c : Dev nD) (E : Set ℕ) (i : grid0.Coords) (arg1 : Memref sig .tc .vmem S256x1024 .f32) (harg1 : arg1.IsWhole)
    (arg2 : Memref sig .tc .vmem S3072x1024 .f32) (harg2 : arg2.IsWhole) (arg3 : Memref sig .tc .vmem S256x3072 .bf16) (harg3 : arg3.IsWhole)
    (x0 : Vec F S256x1024 .f32) (x1 : Vec F S3072x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_bt_kernel i arg1 harg1 arg2 harg2 arg3 harg3) K := by
  simp only [cc0__matmul_bt_kernel_eq_skeleton]; unfold cc0__matmul_bt_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- The region's proof data on core `c`: the arrays as found; after the body at point `t` each input's buffer at its
    block and the output's at `out0_2` of the input blocks; between points only the scoped buffers no window stages and
    the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Reg1.lean ====
/-
  The attention region, at the buffer contents `V` it is entered with.

  Each of its 128 grid points (batch, head pair, query tile) stages a block of 512 query rows and the blocks of all 2048
  key and value rows, each 128 lanes wide, out of ONE array: the three input windows read three column ranges of the
  projected activations. The body stores the output block in two halves of 64 lanes, one per head of the pair; the two
  stores tile the block, so after the body the output's staging buffer holds the two heads' results side by side (each the
  body's arithmetic as one pure term of the three input blocks), and the input buffers are as found. The key and value
  blocks do not move along the query-tile axis and are fetched once per four points; an input buffer holds its array's
  block at the point whether or not it was fetched there. Since the three input windows read one array, each holds it
  at a share of its own: a half, a quarter and a quarter.
-/
import proofs.«122617_j58394375357204_2_alg».proof.Proof.Gen.KernelIdeal.Launch
import proofs.«122617_j58394375357204_2_alg».proof.Proof.Gen.KernelIdeal.Skeleton
import proofs.«122617_j58394375357204_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_q : Rect S1x512x128 := Rect.unit (s := S1x512x128) ![0, 0, 0] S1x512x128.size inb_S1x512x128_S1x512x128_0_0_0
abbrev r1_k : Rect S1x2048x128 := Rect.unit (s := S1x2048x128) ![0, 0, 0] S1x2048x128.size inb_S1x2048x128_S1x2048x128_0_0_0
abbrev r1_o0 : Rect S1x512x128 := Rect.unit (s := S1x512x128) ![0, 0, 0] S1x512x64.size inb_S1x512x128_S1x512x64_0_0_0
abbrev r1_o1 : Rect S1x512x128 := Rect.unit (s := S1x512x128) ![0, 0, 64] S1x512x64.size inb_S1x512x128_S1x512x64_0_0_64

/-- The output's staging buffer after the body, from the three input blocks: its two stores as pieces, last first. -/
def out1_3 (x0 : Vec F S1x512x128 .bf16) (x1 : Vec F S1x2048x128 .bf16) (x2 : Vec F S1x2048x128 .bf16) : Vec F S1x512x128 .bf16 :=
  View.canon [⟨r1_o1, k1_pay1 (k1_pay6 (View.ld x2 r1_k)) (k1_pay7 (View.ld x0 r1_q) (View.ld x1 r1_k)) (k1_pay8 (View.ld x0 r1_q) (View.ld x1 r1_k))⟩,
    ⟨r1_o0, k1_pay5 (View.ld x0 r1_q) (View.ld x1 r1_k) (View.ld x2 r1_k)⟩]

/-- The two stores tile the buffer. -/
theorem cover1_3 (p0 p1 : Vec F S1x512x64 .bf16) (y : S1x512x128.Idx) :
    ∃ pc ∈ ([⟨r1_o1, p0⟩, ⟨r1_o0, p1⟩] : List (View.Piece (Elt F) S1x512x128 .bf16)), y ∈ pc.1.set :=
  View.cover_of_tiled [⟨r1_o1, p0⟩, ⟨r1_o0, p1⟩] S1x512x64.size (by rfl) y

/-! ## The body's triple -/

set_option maxHeartbeats 4000000 in
theorem sound_kernel1 (c : Dev nD) (E : Set ℕ) (i : grid1.Coords) (arg3 : Memref sig .tc .vmem S1x512x128 .bf16) (harg3 : arg3.IsWhole)
    (arg4 : Memref sig .tc .vmem S1x2048x128 .bf16) (harg4 : arg4.IsWhole) (arg5 : Memref sig .tc .vmem S1x2048x128 .bf16) (harg5 : arg5.IsWhole)
    (arg6 : Memref sig .tc .vmem S1x512x128 .bf16) (harg6 : arg6.IsWhole)
    (x0 : Vec F S1x512x128 .bf16) (x1 : Vec F S1x2048x128 .bf16) (x2 : Vec F S1x2048x128 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out1_3 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _ _)

/-! ## The proof data -/

/-- The three shares the input windows hold their one array at. -/
abbrev shQ : PosShare TreeShare := (fullShare : PosShare TreeShare).left
abbrev shK : PosShare TreeShare := (fullShare : PosShare TreeShare).right.left
abbrev shV : PosShare TreeShare := (fullShare : PosShare TreeShare).right.right

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => shQ
    | ⟨1, _⟩ => shK
    | ⟨2, _⟩ => shV
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Reg2.lean ====
/-
  The output projection's region, at the buffer contents `V` it is entered with.

  Each of its 32 grid points stages a block of 256 mixed-head rows and the whole weight, and stores one block of 256
  result rows: the body's one store covers the output block, so after the body the output's staging buffer holds the
  product of the two input blocks (the body's arithmetic as one pure term), and the two input buffers are as found.
  An input buffer holds its array's block at the point whether or not it was fetched there: the weight, whose block
  never moves, is fetched once.
-/
import proofs.«122617_j58394375357204_2_alg».proof.Proof.Gen.KernelIdeal.Launch
import proofs.«122617_j58394375357204_2_alg».proof.Proof.Gen.KernelIdeal.Skeleton
import proofs.«122617_j58394375357204_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_a : Rect S256x1024 := Rect.unit (s := S256x1024) ![0, 0] S256x1024.size inb_S256x1024_S256x1024_0_0
abbrev r2_b : Rect S1024x1024 := Rect.unit (s := S1024x1024) ![0, 0] S1024x1024.size inb_S1024x1024_S1024x1024_0_0
abbrev r2_o : Rect S256x1024 := Rect.unit (s := S256x1024) ![0, 0] S256x1024.size inb_S256x1024_S256x1024_0_0

/-- The output's staging buffer after the body, from the two input blocks: the one store as a piece. -/
def out2_2 (x0 : Vec F S256x1024 .bf16) (x1 : Vec F S1024x1024 .f32) : Vec F S256x1024 .f32 :=
  View.canon [⟨r2_o, k2_pay1 (View.ld x0 r2_a) (View.ld x1 r2_b)⟩]

/-- The store covers the buffer. -/
theorem cover2_2 (p0 : Vec F S256x1024 .f32) (y : S256x1024.Idx) :
    ∃ pc ∈ ([⟨r2_o, p0⟩] : List (View.Piece (Elt F) S256x1024 .f32)), y ∈ pc.1.set :=
  View.cover_of_tiled [⟨r2_o, p0⟩] S256x1024.size (by rfl) y

/-! ## The body's triple -/

set_option maxHeartbeats 1000000 in
/-- The body on whole staging memrefs, the inputs' at read contents `x0`, `x1` and the output's at anything, runs to the
    continuation holding the inputs' as they were and the output's at `out2_2` of them. -/
theorem sound_kernel2 (c : Dev nD) (E : Set ℕ) (i : grid2.Coords) (arg1 : Memref sig .tc .vmem S256x1024 .bf16) (harg1 : arg1.IsWhole)
    (arg2 : Memref sig .tc .vmem S1024x1024 .f32) (harg2 : arg2.IsWhole) (arg3 : Memref sig .tc .vmem S256x1024 .f32) (harg3 : arg3.IsWhole)
    (x0 : Vec F S256x1024 .bf16) (x1 : Vec F S1024x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__matmul_bt_kernel i arg1 harg1 arg2 harg2 arg3 harg3) K := by
  simp only [cc2__matmul_bt_kernel_eq_skeleton]; unfold cc2__matmul_bt_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The proof data -/

/-- The region's proof data on core `c`: the arrays as found; after the body at point `t` each input's buffer at its
    block and the output's at `out2_2` of the input blocks; between points only the scoped buffers no window stages and
    the generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Shares1.lean ====
/-
  One array read through three windows: dealing its buffer out and putting it back.

  The attention region's three input windows read one array. When the region is entered the array's buffer is held
  whole, once; reading needs only a share, so the buffer is dealt out to the three windows at a half, a quarter and a
  quarter, beside the output's array held whole. When the region is left the three shares, still at the contents they
  were dealt at, make the whole buffer again. Both directions, and the split of a core's unscoped buffers into the
  two buffers behind the region's arrays and the rest.
-/
import proofs.«122617_j58394375357204_2_alg».proof.Proof.Gen.KernelIdeal.Launch
import proofs.«122617_j58394375357204_2_alg».proof.Proof.Gen.KernelIdeal.Skeleton
import proofs.«122617_j58394375357204_2_alg».proof.Proof.Gen.KernelIdeal.Points
import proofs.«122617_j58394375357204_2_alg».proof.Proof.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

theorem arrImage1 : (Finset.univ.image (Pipeline.arrRef spec1) : Finset (Ref sig .tc)) = {main_v2, main_v3} := by decide

theorem split1 (c : Dev nD) :
    (Pipeline.arrBufs (Ix := Unit) (Name := ℕ) (U := UR sig nD τ) (Lvl := ℕ) spec1 c (V c) : sProp 𝕄) ⊢ (dat1 V c).arrays (dat1 V c).A := by
  unfold Pipeline.arrBufs Dat.arrays
  rw [arrImage1, bigSep_insert (by decide), bigSep_singleton, bigSep_W1]
  rw [(arr_whole1 0).set_eq_univ, (arr_whole1 3).set_eq_univ]
  show iprop(((c : Thread nD τ).loc main_v2 ↦{fullShare} V c main_v2) ∗ ((c : Thread nD τ).loc main_v3 ↦{fullShare} V c main_v3)) ⊢ iprop(((c : Thread nD τ).loc main_v2 ↦{shQ} V c main_v2) ∗ ((c : Thread nD τ).loc main_v2 ↦{shK} V c main_v2)
    ∗ ((c : Thread nD τ).loc main_v2 ↦{shV} V c main_v2) ∗ ((c : Thread nD τ).loc main_v3 ↦{fullShare} V c main_v3))
  iintro ⟨H2, H3⟩
  ihave H := (pointsTo_share (PosShare.mem_left_op_right fullShare)).1 $$ H2
  icases H with ⟨HQ, HR⟩
  ihave H' := (pointsTo_share (PosShare.mem_left_op_right (fullShare : PosShare TreeShare).right)).1 $$ HR
  icases H' with ⟨HK, HV⟩
  isplitl [HQ]; · iexact HQ
  isplitl [HK]; · iexact HK
  isplitl [HV]; · iexact HV
  iexact H3

/-- The reverse, at any contents `G` of the output's array. -/
theorem join1 (c : Dev nD) (V' : (b : Ref sig .tc) → Buf (Elt F) ((c : Thread nD τ).loc b))
    (G : (w : Fin cfg1.W) → Buf (Elt F) ((cfg1.win w).arr.view.loc (c.tc : Thread nD τ)))
    (h0 : G 0 = V' main_v2) (h1 : G 1 = V' main_v2) (h2 : G 2 = V' main_v2) (h3 : G 3 = V' main_v3) :
    (dat1 V c).arrays G ⊢ (Pipeline.arrBufs (Ix := Unit) (Name := ℕ) (U := UR sig nD τ) (Lvl := ℕ) spec1 c V' : sProp 𝕄) := by
  unfold Pipeline.arrBufs Dat.arrays
  rw [arrImage1, bigSep_insert (by decide), bigSep_singleton, bigSep_W1]
  rw [(arr_whole1 0).set_eq_univ, (arr_whole1 3).set_eq_univ, h0, h1, h2, h3]
  show iprop(((c : Thread nD τ).loc main_v2 ↦{shQ} V' main_v2) ∗ ((c : Thread nD τ).loc main_v2 ↦{shK} V' main_v2)
    ∗ ((c : Thread nD τ).loc main_v2 ↦{shV} V' main_v2) ∗ ((c : Thread nD τ).loc main_v3 ↦{fullShare} V' main_v3)) ⊢ iprop(((c : Thread nD τ).loc main_v2 ↦{fullShare} V' main_v2) ∗ ((c : Thread nD τ).loc main_v3 ↦{fullShare} V' main_v3))
  iintro ⟨HQ, HK, HV, H3⟩
  ihave HR := (pointsTo_share (PosShare.mem_left_op_right (fullShare : PosShare TreeShare).right)).2 $$ [HK HV]
  · isplitl [HK]; · iexact HK
    iexact HV
  ihave H2 := (pointsTo_share (PosShare.mem_left_op_right fullShare)).2 $$ [HQ HR]
  · isplitl [HQ]; · iexact HQ
    iexact HR
  isplitl [H2]; · iexact H2
  iexact H3

/-- A core's unscoped buffers are the two buffers behind the region's arrays and the rest. -/
theorem unscopedBufs_split1 (c : Dev nD) (V' : (b : Ref sig .tc) → Buf (Elt F) ((c : Thread nD τ).loc b)) :
    (unscopedBufs c V' : sProp 𝕄)
      = iprop((Pipeline.arrBufs (Ix := Unit) (Name := ℕ) (U := UR sig nD τ) (Lvl := ℕ) spec1 c V' : sProp 𝕄)
          ∗ Pipeline.unscopedRest (Ix := Unit) (Name := ℕ) (U := UR sig nD τ) (Lvl := ℕ) spec1 c V') := by
  have hA : Finset.univ.image (Pipeline.arrRef spec1) ⊆ Finset.univ.filter fun b : Ref sig .tc => ¬ b.isScoped := by decide
  unfold unscopedBufs Pipeline.unscopedRest Pipeline.arrBufs
  rw [bigSep_sdiff_split hA]
  rfl

end Cert.KernelIdeal.Hand

end
-- ==== Proof.RunA.lean ====
/-
  The run of the whole program: the three regions and the four reshapes between them, from the launch to the return.

  The buffer contents at every boundary are a fold from the launch memory: a reshape writes its result, a region leaves
  its output array at what its write-backs make of it (the blocks the grid points stored, laid over the entry contents)
  and everything else as it found it. Each region is entered from "every unscoped buffer at the boundary's contents"
  and left in the same form at the next boundary's; the first and third split their distinct arrays out of the unscoped
  buffers and put them back, the second deals its shared input array out among its three input windows and collects it
  again. At the end every unscoped buffer is read off the last boundary's contents: the three arguments are as launched,
  and the result buffer holds the last reshape of the third region's output array.
-/
import proofs.«122617_j58394375357204_2_alg».proof.Proof.Gen.KernelIdeal.Launch
import proofs.«122617_j58394375357204_2_alg».proof.Proof.Gen.KernelIdeal.Skeleton
import proofs.«122617_j58394375357204_2_alg».proof.Proof.Gen.KernelIdeal.Points
import proofs.«122617_j58394375357204_2_alg».proof.Proof.Gen.KernelIdeal.Regions
import proofs.«122617_j58394375357204_2_alg».proof.Proof.Reg0
import proofs.«122617_j58394375357204_2_alg».proof.Proof.Reg1
import proofs.«122617_j58394375357204_2_alg».proof.Proof.Reg2
import proofs.«122617_j58394375357204_2_alg».proof.Proof.Shares1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At the attention region's exit: its output array at what the write-backs leave, everything else as entered. -/
def W4 (c : Dev nD) : Valuation τ sig (Elt F) :=
  Function.update (W3 m ρ c) (Proc.devRef .tc main_v3) ((dat1 (V3 m ρ) c).arrAt 3 cfg1.N)
theorem W4_out (c : Dev nD) : W4 m ρ c (Proc.devRef .tc main_v3) = (dat1 (V3 m ρ) c).arrAt 3 cfg1.N := by
  unfold W4; exact Function.update_self ..
theorem W4_of_ne (c : Dev nD) (b : Ref sig .tc) (hb : b ≠ main_v3) :
    W4 m ρ c (Proc.devRef .tc b) = W3 m ρ c (Proc.devRef .tc b) := by
  unfold W4; exact Function.update_of_ne (StableHlo.devRef_ne_of_ne hb) ..
abbrev V4 : (c : Dev nD) → (b : Ref sig .tc) → Buf (Elt F) ((c : Thread nD τ).loc b) := fun c b => W4 m ρ c b

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps3 (W6 m ρ c)

/-! ## The arguments end as launched -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_writes_sub hostOps0 _ hostOps0_writes (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps3 _ hostOps3_writes (by decide)
    _ = W5 m ρ c (Proc.devRef .tc main_arg2) := (W6_arr m ρ c 1).trans (((dat2 (V5 m ρ) c).arrAt_in 1 rfl _).trans (A_eq2 (V5 m ρ) c 1))
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-! ## The proof data family and the thread state -/

abbrev adm1 : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm1 p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.RunB.lean ====
/-
  The three regions as segments of the program, and the launch.

  Each region's record: its windows' layout, no semaphore of its own, its body obligation, and how the thread state
  "every unscoped buffer at the boundary's contents, the generator register, nothing owed" enters the region's invariant
  and comes back at the next boundary's contents. The launch then runs the seven segments (reshape, region, reshape,
  region, reshape, region, reshape) in order and reads every unscoped buffer off the last boundary's contents.
-/
import proofs.«122617_j58394375357204_2_alg».proof.Proof.Gen.KernelIdeal.Launch
import proofs.«122617_j58394375357204_2_alg».proof.Proof.Gen.KernelIdeal.Skeleton
import proofs.«122617_j58394375357204_2_alg».proof.Proof.Gen.KernelIdeal.Points
import proofs.«122617_j58394375357204_2_alg».proof.Proof.RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm1 (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm1 (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm1 (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the attention region's arrays hold when it is left, against the next boundary's contents: the three input
    windows' one array as entered, the output's array at what the write-backs leave. -/
theorem exit1_in (c : Dev nD) (w : Fin cfg1.W) (hw : (cfg1.win w).isOut = false) (hr : Pipeline.arrRef spec1 w = main_v2) :
    (dat1 (V3 m ρ) c).arrAt w cfg1.N = (dat1 (V3 m ρ) c).A w := (dat1 (V3 m ρ) c).arrAt_in w hw _

set_option backward.isDefEq.respectTransparency.types false in
def reg1 : Pipeline.RegionSeg (pcfgs (F := F)) adm1 (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hs : (StableHlo.held (c : Thread nD τ) (Pipeline.ucRefs τ sig) (W3 m ρ c) : sProp 𝕄)
        ⊢ iprop((pdats m ρ 1 c).arrays (pdats m ρ 1 c).A
            ∗ Pipeline.unscopedRest (Ix := Unit) (Name := ℕ) (U := UR sig nD τ) (Lvl := ℕ) spec1 c (V3 m ρ c)) := by
      rw [← Pipeline.unscopedBufs_held (Ix := Unit) (Name := ℕ) (U := UR sig nD τ) (Lvl := ℕ) c (W3 m ρ c)]
      rw [show (unscopedBufs c (fun b => W3 m ρ c b) : sProp 𝕄) = unscopedBufs c (V3 m ρ c) from rfl, unscopedBufs_split1 c (V3 m ρ c)]
      exact sep_mono (split1 (V3 m ρ) c) .rfl
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hj : iprop((pdats m ρ 1 c).arrays ((pdats m ρ 1 c).arrAt · cfg1.N)
          ∗ Pipeline.unscopedRest (Ix := Unit) (Name := ℕ) (U := UR sig nD τ) (Lvl := ℕ) spec1 c (V3 m ρ c))
        ⊢ (StableHlo.held (c : Thread nD τ) (Pipeline.ucRefs τ sig) (W4 m ρ c) : sProp 𝕄) := by
      rw [← Pipeline.unscopedBufs_held (Ix := Unit) (Name := ℕ) (U := UR sig nD τ) (Lvl := ℕ) c (W4 m ρ c)]
      rw [show (unscopedBufs c (fun b => W4 m ρ c b) : sProp 𝕄) = unscopedBufs c (V4 m ρ c) from rfl, unscopedBufs_split1 c (V4 m ρ c)]
      refine sep_mono ?_ (Entails.of_eq ?_)
      · exact join1 (V3 m ρ) c (V4 m ρ c) ((dat1 (V3 m ρ) c).arrAt · cfg1.N)
          (((dat1 (V3 m ρ) c).arrAt_in 0 rfl _).trans ((A_eq1 (V3 m ρ) c 0).trans (W4_of_ne m ρ c main_v2 (by decide)).symm))
          (((dat1 (V3 m ρ) c).arrAt_in 1 rfl _).trans ((A_eq1 (V3 m ρ) c 1).trans (W4_of_ne m ρ c main_v2 (by decide)).symm))
          (((dat1 (V3 m ρ) c).arrAt_in 2 rfl _).trans ((A_eq1 (V3 m ρ) c 2).trans (W4_of_ne m ρ c main_v2 (by decide)).symm))
          (W4_out m ρ c).symm
      · unfold Pipeline.unscopedRest
        exact bigSep_congr fun b hb => by
          rw [show V4 m ρ c b = V3 m ρ c b from W4_of_ne m ρ c b (fun e => (Finset.mem_sdiff.mp hb).2 (e ▸ Finset.mem_image.mpr ⟨3, Finset.mem_univ _, rfl⟩))]
    iintro ⟨Ha, HO, HY, Hrest⟩
    imodintro
    isplitl [Ha Hrest]
    · iapply hj; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm1 (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm1 (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm1 (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm1 (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

theorem main_run (c : Dev nD) : main (F := F) c = Pipeline.Seg.run (segs m ρ) := (main_chain c).trans (by chain_rfl)

/-- The last thread state without the `owes`. -/
abbrev Tₙ (c : Dev nD) : sProp 𝕄 := iprop(StableHlo.held (c : Thread nD τ) (Pipeline.ucRefs τ sig) (W7 m ρ c) ∗ ∃ r, prngReg c r)

set_option backward.isDefEq.respectTransparency.types false in
/-- From any memory with zero counters every weakly fair execution of the program terminates, nothing faulting, and in
    every final state the result buffer holds the last boundary's contents of it and the three arguments are as
    launched. -/
theorem run_main : θ_run defs (onTc (τ := τ) (main (F := F))) ⟨m, fun _ => 0, ρ⟩ (fun r => ∀ c : Dev nD,
      r.2.mem ((c.tc : Thread nD τ).loc main_v6) = W7 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm1 (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v6 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c)⟩)

end Cert.KernelIdeal.Hand

end
-- ==== Proof.Bridge.lean ====
/-
  What the reshapes between the regions hold, and what each region's output array holds when it is left.

  Reading the boundary contents one step back at a time: the result buffer is the third region's output rows viewed as
  [4, 2048, 1024]; those rows are written by the third region from the second region's output laid out as rows and the
  second weight as launched; the second region's output is written from the first region's output rows viewed as
  [4, 2048, 3072]; and those rows are written from the activations laid out as rows and the first weight as launched.
-/
import proofs.«122617_j58394375357204_2_alg».proof.Proof.Gen.KernelIdeal.Launch
import proofs.«122617_j58394375357204_2_alg».proof.Proof.Gen.KernelIdeal.Skeleton
import proofs.«122617_j58394375357204_2_alg».proof.Proof.Gen.KernelIdeal.Points
import proofs.«122617_j58394375357204_2_alg».proof.Proof.RunA
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem V1_v0 (c : Dev nD) :
    V1 m ρ c main_v0 = shapeCast S8192x1024 (m ((c : Thread nD τ).loc main_arg0)) shapeCasts_S4x2048x1024_S8192x1024 := by
  show StableHlo.after hostOps0 (W0 m ρ c) (Proc.devRef .tc main_v0) = _
  after_results; rfl

theorem V1_arg1 (c : Dev nD) : V1 m ρ c main_arg1 = m ((c : Thread nD τ).loc main_arg1) :=
  (StableHlo.after_of_writes_sub hostOps0 _ hostOps0_writes (by decide)).trans rfl

theorem V3_v2 (c : Dev nD) :
    V3 m ρ c main_v2 = shapeCast S4x2048x3072 ((dat0 (V1 m ρ) c).arrAt 2 cfg0.N) shapeCasts_S8192x3072_S4x2048x3072 := by
  show StableHlo.after hostOps1 (W2 m ρ c) (Proc.devRef .tc main_v2) = _
  after_results
  rw [show W2 m ρ c (Proc.devRef .tc main_v1) = (dat0 (V1 m ρ) c).arrAt 2 cfg0.N from W2_arr m ρ c 2]
  rfl

theorem V5_v4 (c : Dev nD) :
    V5 m ρ c main_v4 = shapeCast S8192x1024 ((dat1 (V3 m ρ) c).arrAt 3 cfg1.N) shapeCasts_S4x2048x1024_S8192x1024 := by
  show StableHlo.after hostOps2 (W4 m ρ c) (Proc.devRef .tc main_v4) = _
  after_results
  rw [W4_out m ρ c]
  rfl

theorem V5_arg2 (c : Dev nD) : V5 m ρ c main_arg2 = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W7_v6 (c : Dev nD) :
    W7 m ρ c (Proc.devRef .tc main_v6) = shapeCast S4x2048x1024 ((dat2 (V5 m ρ) c).arrAt 2 cfg2.N) shapeCasts_S8192x1024_S4x2048x1024 := by
  show StableHlo.after hostOps3 (W6 m ρ c) (Proc.devRef .tc main_v6) = _
  after_results
  rw [show W6 m ρ c (Proc.devRef .tc main_v5) = (dat2 (V5 m ρ) c).arrAt 2 cfg2.N from W6_arr m ρ c 2]
  rfl

end Cert.KernelIdeal.Hand

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.LibDotForms.lean ====
/-
  Two matrix products of a kernel read entry by entry over the extended reals, whatever precision the product asks for.

  Over the extended reals a product's precision attribute changes nothing. For a left operand [M, K]:
    * against a right operand [K, N] contracted on its first axis, entry (p, q) of the product accumulated into the
      zero splat is the sum over k of x[p, k] · w[k, q]                                   (`matmul_plain_prec`);
    * against a right operand [N, K] contracted on its last axis (a product with the transpose, no transpose
      materialised), entry (p, q) is the sum over k of x[p, k] · w[q, k]                   (`matmul_transposed_prec`).
  Only `0 + s = s` and a re-indexing of the sum are used: nothing here needs finiteness.
-/
import Idealize.ShloMosaic.Lib.ValueIdx
import Idealize.ShloMosaic.PureOps.Ideal.Laws
import proofs.«122617_j58394375357204_2_alg».proof.Proof.LibDotRows

noncomputable section

namespace Cert.LibDotForms

open Idealize.ShloMosaic Idealize.ShloMosaic.ValueIdx

variable {M K N : Nat} {φ₁ φ₂ : FTy}

/-- Entry (p, q) of a kernel's product x · w into the zero splat, at any precision. -/
theorem matmul_plain_prec (prec : Option ContractPrecision) (x : FVec Ideal ⟨2, ![M, K]⟩ φ₁) (w : FVec Ideal ⟨2, ![K, N]⟩ φ₂)
    (p : Fin M) (q : Fin N) :
    matmul (F := Ideal) (DotDims.plain M K N) prec x w (constant ⟨2, ![M, N]⟩ .f32 0x00000000#32) (ix2 p q)
      = ∑ k : Fin K, x (ix2 p k) * w (ix2 k q) :=
  Cert.Lib.DotRows.matmul_plain_apply x w p q

/-- With the right operand contracted on its last axis, the left operand's index at (p, q) and position k is (p, k). -/
theorem transposed_lhsIdx (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a; apply Fin.ext
  match a with
  | ⟨0, _⟩ => rfl
  | ⟨1, _⟩ => exact ((DotDims.transposedRhs M K N).lhsIdx_val_of_single rfl _ _).trans hk

/-- … and the right operand's index is (q, k). -/
theorem transposed_rhsIdx (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a; apply Fin.ext
  match a with
  | ⟨0, _⟩ => rfl
  | ⟨1, _⟩ => exact ((DotDims.transposedRhs M K N).rhsIdx_val_of_single rfl _ _).trans hk

/-- Entry (p, q) of a kernel's product of x with the transpose of w, into the zero splat, at any precision. -/
theorem matmul_transposed_prec (prec : Option ContractPrecision) (x : FVec Ideal ⟨2, ![M, K]⟩ φ₁) (w : FVec Ideal ⟨2, ![N, K]⟩ φ₂)
    (p : Fin M) (q : Fin N) :
    matmul (F := Ideal) (DotDims.transposedRhs M K N) prec x w (constant ⟨2, ![M, N]⟩ .f32 0x00000000#32) (ix2 p q)
      = ∑ k : Fin K, x (ix2 p k) * w (ix2 q k) := by
  simp only [matmul]
  rw [Ideal.matmul_constant_zero_apply, ← Equiv.sum_comp (contrEquiv1 (DotDims.transposedRhs M K N) K rfl rfl).symm]
  exact Finset.sum_congr rfl fun k _ => by rw [transposed_lhsIdx, transposed_rhsIdx]

end Cert.LibDotForms

end
-- ==== Proof.PayProj.lean ====
/-
  The two projection products, entry by entry.

  Each projection kernel multiplies a block of 256 rows, 1024 wide, by the transpose of a weight whose rows are the
  output columns, accumulating into zero. Over the extended reals a change of float format is the identity and a
  recast to the same shape reads the same entry, so entry (p, q) of the stored block is the sum over d of
  a[p, d] · w[q, d].
-/
import proofs.«122617_j58394375357204_2_alg».proof.Proof.Gen.KernelIdeal.Skeleton
import proofs.«122617_j58394375357204_2_alg».proof.Proof.LibDotForms
import Idealize.ShloMosaic.Lib.Pipeline.Value

noncomputable section

namespace Cert.KernelIdeal.Pay

open Cert.KernelIdeal Cert.KernelIdeal.Gen Idealize.ShloMosaic Idealize.ShloMosaic.ValueIdx

/-- The first projection's dimension numbers: both last axes contracted. -/
theorem dot0_eq : dot_S256x1024_S3072x1024_S256x3072_1_1_0_0_n_n = DotDims.transposedRhs 256 1024 3072 := rfl

/-- The second projection's dimension numbers: both last axes contracted. -/
theorem dot2_eq : dot_S256x1024_S1024x1024_S256x1024_1_1_0_0_n_n = DotDims.transposedRhs 256 1024 1024 := rfl

/-- Entry (p, q) of the first projection's stored block. -/
theorem pay0_apply (a : FVec Ideal S256x1024 .f32) (w : FVec Ideal S3072x1024 .f32) (p : Fin 256) (q : Fin 3072) :
    k0_pay1 (F := Ideal) a w (ix2 p q) = ∑ d : Fin 1024, a (ix2 p d) * w (ix2 q d) := by
  unfold k0_pay1
  refine Eq.trans (truncf_apply (ψ := .bf16) _ bitsLt_bf16_f32 (ix2 p q)) ?_
  rw [dot0_eq]
  refine (Cert.LibDotForms.matmul_transposed_prec none _ _ p q).trans ?_
  refine Finset.sum_congr rfl fun d _ => ?_
  refine congrArg₂ (· * ·) ?_ ?_
  · refine Eq.trans (truncf_apply (ψ := .bf16) _ bitsLt_bf16_f32 (ix2 p d)) ?_
    exact congrFun (shapeCast_self a _) (ix2 p d)
  · exact truncf_apply (ψ := .bf16) w bitsLt_bf16_f32 (ix2 q d)

/-- Entry (p, q) of the second projection's stored block. -/
theorem pay2_apply (a : FVec Ideal S256x1024 .bf16) (w : FVec Ideal S1024x1024 .f32) (p : Fin 256) (q : Fin 1024) :
    k2_pay1 (F := Ideal) a w (ix2 p q) = ∑ d : Fin 1024, a (ix2 p d) * w (ix2 q d) := by
  unfold k2_pay1
  rw [dot2_eq]
  refine (Cert.LibDotForms.matmul_transposed_prec none _ _ p q).trans ?_
  refine Finset.sum_congr rfl fun d _ => ?_
  refine congrArg₂ (· * ·) ?_ ?_
  · exact congrFun (shapeCast_self a _) (ix2 p d)
  · exact truncf_apply (ψ := .bf16) w bitsLt_bf16_f32 (ix2 q d)

end Cert.KernelIdeal.Pay

end
-- ==== Proof.Final0.lean ====
/-
  The first projection's region, from blocks to the array.

  Each of the 32 grid points writes back one block of 256 result rows, all 3072 columns. The block's entry (p, q) is the
  product of row p of the point's activation block, which is row 256·t + p of the activations, with row q of the weight;
  so the block is block t of ONE function of the two arrays, Σ_d a[r, d] · w[e, d]. The 32 blocks tile the result array
  (row r lies in block r / 256), hence after the region the array holds that function.
-/
import proofs.«122617_j58394375357204_2_alg».proof.Proof.Reg0
import proofs.«122617_j58394375357204_2_alg».proof.Proof.PayProj
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

-- the TensorCore's buffer contents when the region is entered
variable (V : (c : Dev nD) → (b : Ref sig .tc) → Buf (Elt Ideal) ((c : Thread nD τ).loc b))

theorem hz0 : (![0, 0] : Fin 2 → Nat) = fun _ => 0 := funext fun a => by fin_cases a <;> rfl

/-- The product the region computes, as one function of the two arrays: entry (r, e) is Σ_d a[r, d] · w[e, d]. -/
def G0 (a : FVec Ideal S8192x1024 .f32) (w : FVec Ideal S3072x1024 .f32) : FVec Ideal S8192x3072 .bf16 :=
  fun i => ∑ d : Fin 1024, a (ix2 (i 0) d) * w (ix2 (i 1) d)

/-- The windows' block indices at every grid point: the row blocks move with the point, the weight's block stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row window's block at point t is rows 256·t … 256·t + 255 of its array. -/
theorem iblk0_0_apply (c : Dev nD) (t : Fin cfg0.N) (x : S256x1024.Idx) (k : S8192x1024.Idx)
    (hk0 : (k 0).val = t.val * 256 + (x 0).val) (hk1 : (k 1).val = (x 1).val) :
    (iblk0 V c 0 t : Vec Ideal S256x1024 .f32) x = (V c main_v0 : S8192x1024.Idx → EReal) k := by
  obtain ⟨e0, e1, -⟩ := idx_facts0 t
  unfold iblk0
  rw [View.read_apply]
  show V c main_v0 _ = V c main_v0 _
  congr 1
  funext a
  apply Fin.ext
  match a with
  | ⟨0, _⟩ => show win0_0.index t 0 * 256 + 1 * (x 0).val = (k 0).val; rw [e0, hk0]; omega
  | ⟨1, _⟩ => show win0_0.index t 1 * 1024 + 1 * (x 1).val = (k 1).val; rw [e1, hk1]; omega

/-- The weight window's block at every point is the whole weight. -/
theorem iblk0_1_apply (c : Dev nD) (t : Fin cfg0.N) (x : S3072x1024.Idx) :
    (iblk0 V c 1 t : Vec Ideal S3072x1024 .f32) x = (V c main_arg1 : S3072x1024.Idx → EReal) x := by
  obtain ⟨-, -, e2, e3, -⟩ := idx_facts0 t
  unfold iblk0
  rw [View.read_apply]
  show V c main_arg1 _ = V c main_arg1 _
  congr 1
  funext a
  apply Fin.ext
  match a with
  | ⟨0, _⟩ => show win0_1.index t 0 * 3072 + 1 * (x 0).val = (x 0).val; rw [e2]; omega
  | ⟨1, _⟩ => show win0_1.index t 1 * 1024 + 1 * (x 1).val = (x 1).val; rw [e3]; omega

/-- One entry of a stored block, when the row block holds rows of a and the weight block is w: the product's entry. -/
theorem point0 (a : FVec Ideal S8192x1024 .f32) (w : FVec Ideal S3072x1024 .f32)
    (ba : FVec Ideal S256x1024 .f32) (bw : FVec Ideal S3072x1024 .f32) (r : Fin 8192) (p : Fin 256) (q : Fin 3072)
    (hba : ∀ d : Fin 1024, ba (ix2 p d) = a (ix2 r d)) (hbw : ∀ d : Fin 1024, bw (ix2 q d) = w (ix2 q d)) :
    k0_pay1 (F := Ideal) ba bw (ix2 p q) = G0 a w (ix2 r q) := by
  refine (Cert.KernelIdeal.Pay.pay0_apply ba bw p q).trans ?_
  unfold G0
  exact Finset.sum_congr rfl fun d _ => by rw [hba d, hbw d]

/-- What point t writes back is block t of the product of the arrays as the region finds them. -/
theorem flushed0_eq (c : Dev nD) (t : Fin cfg0.N) :
    (dat0 (F := Ideal) V c).flushed 2 t = ((cfg0.win 2).blk t).view.read (Elt Ideal) (G0 (V c main_v0) (V c main_arg1)) := by
  show (cfg0.win 2).cut (grid0.coords t) ((dat0 V c).after 2 t) = _
  rw [after0_2]
  unfold out0_2
  rw [View.canon_unit_zero hz0]
  simp only [View.ld_unit_zero (S := S256x1024) hz0, View.ld_unit_zero (S := S3072x1024) hz0]
  obtain ⟨-, -, -, -, e4, e5⟩ := idx_facts0 t
  have hN : grid0.N = 32 := N_0
  have ht : t.val < 32 := hN ▸ t.isLt
  funext j
  have hj0 : (j 0).val < 256 := (j 0).isLt
  have hj1 : (j 1).val < 3072 := (j 1).isLt
  have hx : (win0 2).xinj (grid0.coords t) j = ix2 (⟨(j 0).val, hj0⟩ : Fin 256) (⟨(j 1).val, hj1⟩ : Fin 3072) :=
    funext fun a => Fin.ext (by match a with | ⟨0, _⟩ => rfl | ⟨1, _⟩ => rfl)
  show k0_pay1 (F := Ideal) (iblk0 V c 0 t) (iblk0 V c 1 t) ((win0 2).xinj (grid0.coords t) j) = _
  refine (congrArg (k0_pay1 (F := Ideal) (iblk0 V c 0 t) (iblk0 V c 1 t)) hx).trans ?_
  refine (point0 (V c main_v0) (V c main_arg1) (iblk0 V c 0 t) (iblk0 V c 1 t)
    (⟨t.val * 256 + (j 0).val, by omega⟩ : Fin 8192) (⟨(j 0).val, hj0⟩ : Fin 256) (⟨(j 1).val, hj1⟩ : Fin 3072)
    (fun d => iblk0_0_apply V c t (ix2 (⟨(j 0).val, hj0⟩ : Fin 256) d)
      (ix2 (⟨t.val * 256 + (j 0).val, by omega⟩ : Fin 8192) d) rfl rfl)
    (fun d => iblk0_1_apply V c t (ix2 (⟨(j 1).val, hj1⟩ : Fin 3072) d))).trans ?_
  show G0 (V c main_v0) (V c main_arg1) _ = G0 (V c main_v0) (V c main_arg1) (((cfg0.win 2).blk t).view.emb j)
  refine congrArg (G0 (V c main_v0) (V c main_arg1)) (funext fun a => Fin.ext ?_)
  match a with
  | ⟨0, _⟩ => show t.val * 256 + (j 0).val = win0_2.index t (0 : Fin 2) * 256 + 1 * (j 0).val; rw [e4]; omega
  | ⟨1, _⟩ => show (j 1).val = win0_2.index t (1 : Fin 2) * 3072 + 1 * (j 1).val; rw [e5]; omega

/-- An index of the array is in point t's block iff each coordinate is in the block's range on its axis. -/
theorem mem_blk0 (t : Fin cfg0.N) (i : S8192x3072.Idx) :
    i ∈ ((cfg0.win 2).blk t).view.set ↔ ∀ a : Fin 2, win0_2.index t a * S256x3072.size a ≤ (i a).val ∧ (i a).val < win0_2.index t a * S256x3072.size a + S256x3072.size a := by
  show i ∈ ((View.whole main_v1).slice (win0_2.rect t)).set ↔ _
  rw [View.set_slice_whole, Rect.mem_set_unit]
  exact Iff.rfl

/-- Every index of the array is in the block of the point its row falls in: point (row / 256). -/
theorem cover0 (i : S8192x3072.Idx) :
    ∃ t : Fin cfg0.N, (cfg0.win 2).flush t = true ∧ i ∈ ((cfg0.win 2).blk t).view.set := by
  have hN : grid0.N = 32 := N_0
  have hi0 : (i 0).val < 8192 := (i 0).isLt
  have hi1 : (i 1).val < 3072 := (i 1).isLt
  have hlt : (i 0).val / 256 < grid0.N := by omega
  obtain ⟨-, -, -, -, e4, e5⟩ := idx_facts0 (⟨(i 0).val / 256, hlt⟩ : Fin cfg0.N)
  refine ⟨⟨(i 0).val / 256, hlt⟩, flush0_2 _, ?_⟩
  rw [mem_blk0]
  intro a
  match a with
  | ⟨0, _⟩ =>
    show win0_2.index ⟨(i 0).val / 256, hlt⟩ (0 : Fin 2) * 256 ≤ (i 0).val ∧ (i 0).val < win0_2.index ⟨(i 0).val / 256, hlt⟩ (0 : Fin 2) * 256 + 256
    rw [e4]
    show (i 0).val / 256 * 256 ≤ (i 0).val ∧ (i 0).val < (i 0).val / 256 * 256 + 256
    omega
  | ⟨1, _⟩ =>
    show win0_2.index ⟨(i 0).val / 256, hlt⟩ (1 : Fin 2) * 3072 ≤ (i 1).val ∧ (i 1).val < win0_2.index ⟨(i 0).val / 256, hlt⟩ (1 : Fin 2) * 3072 + 3072
    rw [e5]
    omega

/-- The output array after the region: the product of the two arrays as the region finds them. -/
theorem final0 (c : Dev nD) : (dat0 (F := Ideal) V c).arrAt 2 cfg0.N = G0 (V c main_v0) (V c main_arg1) :=
  (dat0 (F := Ideal) V c).arrAt_eq_of_cover 2 (G0 (V c main_v0) (V c main_arg1)) (fun t _ => flushed0_eq V c t) (fun i => cover0 i)

end Cert.KernelIdeal.Hand

end
-- ==== Proof.Spec.lean ====
/-
  The function both programs compute, written once over the extended reals.

  From activations x[b,t,·] (1024 wide) and a weight w[e,·] the projection is the row product
  proj[b,t,e] = Σ_d x[b,t,d]·w[e,d]; its 3072 columns are three parts (query, key, value) of sixteen heads of
  sixty-four lanes each. For head h the score of query row t against key row k is the lane product of the two
  rows times 1/8; a row of scores is shifted by its maximum, exponentiated, and divided by the row's sum; the
  head's output row is the resulting weights applied to the value rows. The sixteen head outputs side by side
  make a 1024-wide row, which the second weight maps to the result row.
-/
import Idealize.ShloMosaic.PureOps.Ideal
import Idealize.ShloMosaic.Lib.ValueIdx

noncomputable section

namespace Cert.Attn

open Idealize.ShloMosaic Idealize.ShloMosaic.ValueIdx

abbrev Sx : Shape := ⟨3, ![4, 2048, 1024]⟩
abbrev Swq : Shape := ⟨2, ![3072, 1024]⟩
abbrev Swp : Shape := ⟨2, ![1024, 1024]⟩

/-- The score scale 1/8, as the binary word both programs carry. -/
def scale : EReal := Ideal.ofBits .f32 0x3E000000#32
/-- The value a row maximum starts from, as the binary word both programs carry. -/
def ninf : EReal := Ideal.ofBits .f32 0xFF800000#32

/-- Column `o·1024 + h·64 + d` of a projected row: part `o` (0 query, 1 key, 2 value), head `h`, lane `d`. -/
def col (o : Fin 3) (h : Fin 16) (d : Fin 64) : Fin 3072 := ⟨o.val * 1024 + h.val * 64 + d.val, by omega⟩

/-- The projection of row (b, t) onto output column e. -/
def proj (x : FVec Ideal Sx .f32) (w : FVec Ideal Swq .f32) (b : Fin 4) (t : Fin 2048) (e : Fin 3072) : EReal :=
  ∑ d : Fin 1024, x (ix3 b t d) * w (ix2 e d)

section
variable (Q : Fin 4 → Fin 2048 → Fin 3072 → EReal)

/-- Head h's score of query row t against key row k. -/
def score (b : Fin 4) (h : Fin 16) (t k : Fin 2048) : EReal :=
  (∑ d : Fin 64, Q b t (col 0 h d) * Q b k (col 1 h d)) * scale

/-- The maximum of a row of scores. -/
def rowMax (b : Fin 4) (h : Fin 16) (t : Fin 2048) : EReal :=
  (Finset.univ : Finset (Fin 2048)).fold max ninf (fun k => score Q b h t k)

/-- The shifted score, exponentiated. -/
def pexp (b : Fin 4) (h : Fin 16) (t k : Fin 2048) : EReal := Ideal.exp (score Q b h t k - rowMax Q b h t)

/-- The sum of a row of exponentials. -/
def rowSum (b : Fin 4) (h : Fin 16) (t : Fin 2048) : EReal := ∑ k : Fin 2048, pexp Q b h t k

/-- The attention weight of key row k for query row t. -/
def prob (b : Fin 4) (h : Fin 16) (t k : Fin 2048) : EReal := Ideal.div (pexp Q b h t k) (rowSum Q b h t)

/-- Head h's output row t at lane d: the weights applied to the value rows. -/
def head (b : Fin 4) (t : Fin 2048) (h : Fin 16) (d : Fin 64) : EReal :=
  ∑ k : Fin 2048, prob Q b h t k * Q b k (col 2 h d)

/-- The heads side by side: column c of the 1024-wide row is lane c mod 64 of head c / 64. -/
def mix (b : Fin 4) (t : Fin 2048) (c : Fin 1024) : EReal :=
  head Q b t ⟨c.val / 64, by omega⟩ ⟨c.val % 64, by omega⟩

end

/-- The result: the mixed heads of the projected activations mapped by the second weight. -/
def out (x : FVec Ideal Sx .f32) (wq : FVec Ideal Swq .f32) (wp : FVec Ideal Swp .f32) : FVec Ideal Sx .f32 :=
  fun i => ∑ c : Fin 1024, mix (proj x wq) (i 0) (i 1) c * wp (ix2 (i 2) c)

end Cert.Attn

end
-- ==== Proof.BlockSpec.lean ====
/-
  One attention grid point, from its three blocks.

  A grid point sees a query block of 512 rows and key and value blocks of 2048 rows, each 128 lanes wide: two heads of
  64 lanes side by side. For the head in lane half `hh` the point computes, row by row, exactly the head output of
  Spec.lean with the blocks' rows in place of the projected rows: lane product times 1/8, shifted by the row maximum,
  exponentiated, divided by the row sum, applied to the value block's rows.
-/
import proofs.«122617_j58394375357204_2_alg».proof.Proof.Spec

noncomputable section

namespace Cert.Attn

open Idealize.ShloMosaic Idealize.ShloMosaic.ValueIdx

abbrev Sq : Shape := ⟨3, ![1, 512, 128]⟩
abbrev Sk : Shape := ⟨3, ![1, 2048, 128]⟩

/-- Lane `hh·64 + d` of a 128-lane block: lane `d` of the head in half `hh`. -/
def lane (hh : Fin 2) (d : Fin 64) : Fin 128 := ⟨hh.val * 64 + d.val, by omega⟩

section
variable (qb : Sq.Idx → EReal) (kb vb : Sk.Idx → EReal)

def bscore (hh : Fin 2) (r : Fin 512) (k : Fin 2048) : EReal :=
  (∑ d : Fin 64, qb (ix3 0 r (lane hh d)) * kb (ix3 0 k (lane hh d))) * scale

def bmax (hh : Fin 2) (r : Fin 512) : EReal :=
  (Finset.univ : Finset (Fin 2048)).fold max ninf (fun k => bscore qb kb hh r k)

def bexp (hh : Fin 2) (r : Fin 512) (k : Fin 2048) : EReal := Ideal.exp (bscore qb kb hh r k - bmax qb kb hh r)

def bsum (hh : Fin 2) (r : Fin 512) : EReal := ∑ k : Fin 2048, bexp qb kb hh r k

def bprob (hh : Fin 2) (r : Fin 512) (k : Fin 2048) : EReal := Ideal.div (bexp qb kb hh r k) (bsum qb kb hh r)

/-- Row `r`, lane `d` of the output of the head in half `hh`. -/
def bhead (hh : Fin 2) (r : Fin 512) (d : Fin 64) : EReal :=
  ∑ k : Fin 2048, bprob qb kb hh r k * vb (ix3 0 k (lane hh d))

end

end Cert.Attn

end
-- ==== Proof.LibRowReduce.lean ====
/-
  A row's maximum and a row's sum, as a kernel and as the host compute them.

  For an array `v : [R, C]` reduced along its second axis, over the extended reals: the kernel's lane maximum from the
  word of `-∞` and the host's reduce with a maximum body from the same word are both the fold of `max` over the row's
  `C` entries; the kernel's lane sum and the host's sum from zero are both the plain sum of the row's entries. Also the
  two small facts that go with them: `max (-∞) y = y`, and a vector `[R]` recast as a column `[R, 1]` reads its row.
-/
import Mathlib
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.LibRowReduce

open Idealize.ShloMosaic Idealize.ShloMosaic.ValueIdx

variable {R C : Nat}

/-- The maximum of `C` extended reals, folded from the f32 word of `-∞`. -/
def rowMax (f : Fin C → EReal) : EReal :=
  (Finset.univ : Finset (Fin C)).fold max (Ideal.ofBits .f32 0xFF800000#32) f

/-- The f32 word `0xFF800000` is `-∞`, the identity of `max`. -/
theorem max_negInf (y : EReal) : max (Ideal.ofBits .f32 0xFF800000#32) y = y := by
  simp [Ideal.ofBits, Ideal.ieee]

/-- The reduced index `r` with lane `k` put back is `(r, k)`. -/
theorem lift_row (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  fin_cases c <;> rfl

/-- The kernel's lane maximum of row `r`. -/
theorem multiReduction_max_row (src : FVec Ideal ⟨2, ![R, C]⟩ .f32)
    (h : (⟨2, ![R, C]⟩ : Shape).Reduces [1] (⟨1, ![R]⟩ : Shape)) (hφ : FKind.Formats .f32)
    (hacc : (0xFF800000#32 : BitVec 32) = FKind.maximumf.neutral .f32 hφ) (r : Fin R) :
    multiReduction .maximumf [1] (⟨1, ![R]⟩ : Shape) src 0xFF800000#32 h hφ hacc (ix1 r) = rowMax fun k => src (ix2 r k) := by
  rw [Ideal.multiReduction_maximumf_single src _ h hφ hacc (ix1 r)]
  have hf : (src ∘ h.lift (ix1 r)) = fun k : Fin C => src (ix2 r k) :=
    funext fun k => congrArg src (lift_row h r k)
  unfold rowMax
  exact congrArg (fun f => Finset.fold max (Ideal.ofBits .f32 0xFF800000#32) f (Finset.univ : Finset (Fin C))) hf

/-- The host's reduce with a maximum body along axis 1, from the word of `-∞`, at row `r`. -/
theorem hostReduce_max_row (x : FVec Ideal ⟨2, ![R, C]⟩ .f32) (init : (⟨0, ![]⟩ : Shape).Idx → Ideal .f32)
    (hinit : ∀ i, init i = Ideal.ofBits .f32 0xFF800000#32)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduce FloatOps.maximumf x init h' hu (ix1 r) = rowMax fun k => x (ix2 r k) := by
  rw [Host.reduce_eq_fold_single FloatOps.maximumf x _ h' h hu, hinit]
  have hf : (x ∘ h.lift (ix1 r)) = fun k : Fin C => x (ix2 r k) :=
    funext fun k => congrArg x (lift_row h r k)
  unfold rowMax
  exact congrArg (fun f => Finset.fold max (Ideal.ofBits .f32 0xFF800000#32) f (Finset.univ : Finset (Fin C))) hf

/-- The kernel's lane sum of row `r`. -/
theorem multiReduction_add_row (src : FVec Ideal ⟨2, ![R, C]⟩ .f32)
    (h : (⟨2, ![R, C]⟩ : Shape).Reduces [1] (⟨1, ![R]⟩ : Shape)) (hφ : FKind.Formats .f32)
    (hacc : (0x00000000#32 : BitVec 32) = FKind.add.neutral .f32 hφ) (r : Fin R) :
    multiReduction .add [1] (⟨1, ![R]⟩ : Shape) src 0x00000000#32 h hφ hacc (ix1 r) = ∑ k : Fin C, src (ix2 r k) := by
  rw [Ideal.multiReduction_add_single src _ h hφ hacc (ix1 r)]
  refine Finset.sum_congr rfl fun k _ => ?_
  exact congrArg src (lift_row h r k)

/-- The host's sum along axis 1 from zero, at row `r`. -/
theorem hostReduceAdd_row (x : FVec Ideal ⟨2, ![R, C]⟩ .f32) (init : (⟨0, ![]⟩ : Shape).Idx → Ideal .f32)
    (hinit : ∀ i, init i = 0)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduceAdd (F := Ideal) x init h' hu (ix1 r) = ∑ k : Fin C, x (ix2 r k) := by
  show Ideal.hostReduceAdd h' x (init (Shape.Idx.first hu)) (ix1 r) = _
  rw [Ideal.hostReduceAdd_single h' h, hinit, zero_add]
  refine Finset.sum_congr rfl fun k _ => ?_
  exact congrArg x (lift_row h r k)

/-- A vector `[R]` recast as a column `[R, 1]` reads its row. -/
theorem shapeCast_col_apply {α : Type} (v : (⟨1, ![R]⟩ : Shape).Idx → α) (h : (⟨1, ![R]⟩ : Shape).ShapeCasts ⟨2, ![R, 1]⟩)
    (r : Fin R) : shapeCast ⟨2, ![R, 1]⟩ v h (ix2 r (0 : Fin 1)) = v (ix1 r) := by
  refine shapeCast_apply v h _ _ ?_
  rw [Shape.rowMajor_val_two, Shape.rowMajor_val_one]
  show r.val = r.val * 1 + 0
  omega

end Cert.LibRowReduce

end
-- ==== Proof.LibColBroadcast.lean ====
/-
  One column broadcast over many: a `[a, 1]` array broadcast to `[a, b]` reads, at `(p, c)`, the operand's row `p`.
-/
import Idealize.ShloMosaic.Lib.ValueIdx
import Idealize.ShloMosaic.Lib.Pipeline.Value

noncomputable section

namespace Cert.LibColBroadcast

open Idealize.ShloMosaic Idealize.ShloMosaic.ValueIdx

variable {α : Type}

/-- A `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast

end
-- ==== Proof.LibLeadAxis.lean ====
/-
  Layout steps around a leading axis, read at an index, and a sum along the leading axis.

  A block `[1, A, B]` viewed as `[A, B]` reads `(0, a, b)` at `(a, b)`, and a value `[A, B]` stored as a block
  `[1, A, B]` reads `(a, b)` at `(0, a, b)`. A value `[A, C]` recast as `[A, 1, C]` reads `(a, c)` at `(a, 0, c)`, and
  `[A, 1, C]` broadcast along its middle axis to `[A, R, C]` reads `(a, 0, c)` at every `(a, r, c)`. Over the extended
  reals the sum of an array `[E, R, C]` along its leading axis, from the zero word, is at `(r, c)` the plain sum over
  `e` of the entries `(e, r, c)`. All extents are arbitrary.
-/
import Mathlib
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.LibLeadAxis

open Idealize.ShloMosaic Idealize.ShloMosaic.ValueIdx

/-- A block `[1, A, B]` viewed `[A, B]` reads `(0, a, b)` at `(a, b)`. -/
theorem cast_drop_apply {A B : Nat} {α : Type} (v : (⟨3, ![1, A, B]⟩ : Shape).Idx → α)
    (h : (⟨3, ![1, A, B]⟩ : Shape).ShapeCasts ⟨2, ![A, B]⟩) (a : Fin A) (b : Fin B) :
    shapeCast ⟨2, ![A, B]⟩ v h (ix2 a b) = v (ix3 (0 : Fin 1) a b) := by
  refine shapeCast_apply v h _ _ ?_
  rw [Shape.rowMajor_val_three, Shape.rowMajor_val_two]
  show (0 * A + a.val) * B + b.val = a.val * B + b.val
  rw [Nat.zero_mul, Nat.zero_add]

/-- A value `[A, B]` stored as a block `[1, A, B]` reads `(a, b)` at `(0, a, b)`. -/
theorem cast_add_apply {A B : Nat} {α : Type} (v : (⟨2, ![A, B]⟩ : Shape).Idx → α)
    (h : (⟨2, ![A, B]⟩ : Shape).ShapeCasts ⟨3, ![1, A, B]⟩) (a : Fin A) (b : Fin B) :
    shapeCast ⟨3, ![1, A, B]⟩ v h (ix3 (0 : Fin 1) a b) = v (ix2 a b) := by
  refine shapeCast_apply v h _ _ ?_
  rw [Shape.rowMajor_val_three, Shape.rowMajor_val_two]
  show a.val * B + b.val = (0 * A + a.val) * B + b.val
  rw [Nat.zero_mul, Nat.zero_add]

/-- `[A, C]` recast as `[A, 1, C]` reads `(a, c)` at `(a, 0, c)`. -/
theorem cast_mid_apply {A C : Nat} {α : Type} (v : (⟨2, ![A, C]⟩ : Shape).Idx → α)
    (h : (⟨2, ![A, C]⟩ : Shape).ShapeCasts ⟨3, ![A, 1, C]⟩) (a : Fin A) (c : Fin C) :
    shapeCast ⟨3, ![A, 1, C]⟩ v h (ix3 a (0 : Fin 1) c) = v (ix2 a c) := by
  refine shapeCast_apply v h _ _ ?_
  rw [Shape.rowMajor_val_three, Shape.rowMajor_val_two]
  show a.val * C + c.val = (a.val * 1 + 0) * C + c.val
  rw [Nat.mul_one, Nat.add_zero]

/-- `[A, 1, C]` broadcast along the middle axis to `[A, R, C]` reads `(a, 0, c)` at every `(a, r, c)`. -/
theorem broadcast_mid_apply {A R C : Nat} {α : Type} (v : (⟨3, ![A, 1, C]⟩ : Shape).Idx → α)
    (h : (⟨3, ![A, 1, C]⟩ : Shape).Broadcasts ⟨3, ![A, R, C]⟩) (a : Fin A) (r : Fin R) (c : Fin C) :
    broadcastTo ⟨3, ![A, R, C]⟩ v h (ix3 a r c) = v (ix3 a (0 : Fin 1) c) := by
  refine broadcastTo_apply v h _ _ fun k => ?_
  match k with
  | ⟨0, _⟩ =>
    show a.val = if A = 1 then 0 else a.val
    split
    · have := a.isLt; omega
    · rfl
  | ⟨1, _⟩ =>
    show 0 = if (1 : Nat) = 1 then 0 else r.val
    rw [if_pos rfl]
  | ⟨2, _⟩ =>
    show c.val = if C = 1 then 0 else c.val
    split
    · have := c.isLt; omega
    · rfl

/-- The reduced index `(r, c)` with coordinate `e` put back on the leading axis is `(e, r, c)`. -/
theorem lift_lead {E R C : Nat} (h : (⟨3, ![E, R, C]⟩ : Shape).Reduces [0] (⟨2, ![R, C]⟩ : Shape)) (r : Fin R) (c : Fin C)
    (e : Fin ((⟨3, ![E, R, C]⟩ : Shape).size 0)) : h.lift (ix2 r c) e = ix3 (⟨e.val, e.isLt⟩ : Fin E) r c := by
  funext k; apply Fin.ext
  fin_cases k <;> rfl

/-- A sum along the leading axis of `[E, R, C]`, from the zero word, at `(r, c)`. -/
theorem sum_lead_apply {E R C : Nat} (src : FVec Ideal ⟨3, ![E, R, C]⟩ .f32)
    (h : (⟨3, ![E, R, C]⟩ : Shape).Reduces [0] (⟨2, ![R, C]⟩ : Shape)) (hφ : FKind.Formats .f32)
    (hacc : (0x00000000#32 : BitVec 32) = FKind.add.neutral .f32 hφ) (r : Fin R) (c : Fin C) :
    multiReduction .add [0] (⟨2, ![R, C]⟩ : Shape) src 0x00000000#32 h hφ hacc (ix2 r c) = ∑ e : Fin E, src (ix3 e r c) := by
  refine (Ideal.multiReduction_add_single src _ h hφ hacc (ix2 r c)).trans ?_
  exact Finset.sum_congr rfl fun e _ => congrArg src (lift_lead h r c e)

end Cert.LibLeadAxis

end
-- ==== Proof.PayAttnCommon.lean ====
/-
  One attention head of a grid point, entry by entry: the pieces both heads share.

  A head takes 64 of the 128 lanes of the query, key and value blocks, starting at lane o (0 or 64). Its scores are the
  lane products of a query row and a key row times 1/8; each row of scores is shifted by its maximum, exponentiated and
  divided by its sum; the head's output is these weights applied to the value rows. Over the extended reals a change of
  float format is the identity and every layout step reads one entry of its operand, so each stage is read here at an
  index as the plain formula.
-/
import proofs.«122617_j58394375357204_2_alg».proof.Proof.Gen.KernelIdeal.Skeleton
import proofs.«122617_j58394375357204_2_alg».proof.Proof.BlockSpec
import proofs.«122617_j58394375357204_2_alg».proof.Proof.LibDotForms
import proofs.«122617_j58394375357204_2_alg».proof.Proof.LibRowReduce
import proofs.«122617_j58394375357204_2_alg».proof.Proof.LibColBroadcast
import proofs.«122617_j58394375357204_2_alg».proof.Proof.LibLeadAxis

noncomputable section

namespace Cert.KernelIdeal.Pay

open Cert.KernelIdeal Cert.KernelIdeal.Gen Idealize.ShloMosaic Idealize.ShloMosaic.ValueIdx

/-- The score product's dimension numbers: both last axes contracted. -/
theorem dotQK_eq : dot_S512x64_S2048x64_S512x2048_1_1_0_0_n_n = DotDims.transposedRhs 512 64 2048 := rfl

/-- The weights-times-values product's dimension numbers: the plain product. -/
theorem dotPV_eq : dot_S512x2048_S2048x64_S512x64_1_0_0_1_n_n = DotDims.plain 512 2048 64 := rfl

/-- Sixty-four lanes of a 128-lane array starting at lane o: entry (r, d) is entry (r, o + d) of the array. -/
theorem slice_lanes_apply {R : Nat} {α : Type} (o : Nat) (x : (⟨2, ![R, 128]⟩ : Shape).Idx → α)
    (h : (⟨2, ![R, 128]⟩ : Shape).Slices ![0, o] ⟨2, ![R, 64]⟩) (r : Fin R) (d : Fin 64) (hb : o + d.val < 128) :
    extractStridedSlice ⟨2, ![R, 64]⟩ ![0, o] x h (ix2 r d) = x (ix2 r (⟨o + d.val, hb⟩ : Fin 128)) := by
  refine extractStridedSlice_apply _ x h _ _ fun a => ?_
  match a with
  | ⟨0, _⟩ => exact (Nat.zero_add _).symm
  | ⟨1, _⟩ => rfl

/-- The value rows of the head that starts at lane o. -/
def sliceV (o : Nat) (hk : S2048x128.Slices ![0, o] S2048x64) (v4 : Vec Ideal S1x2048x128 .bf16) : FVec Ideal S2048x64 .bf16 :=
  extractStridedSlice S2048x64 ![0, o] (k1_pay4 (F := Ideal) v4) hk

/-- The scaled scores of the head that starts at lane o. -/
def scoreP (o : Nat) (hq : S512x128.Slices ![0, o] S512x64) (hk : S2048x128.Slices ![0, o] S2048x64)
    (v0 : Vec Ideal S1x512x128 .bf16) (v2 : Vec Ideal S1x2048x128 .bf16) : FVec Ideal S512x2048 .f32 :=
  mulf (matmul dot_S512x64_S2048x64_S512x2048_1_1_0_0_n_n none (extractStridedSlice S512x64 ![0, o] (k1_pay2 (F := Ideal) v0) hq)
      (extractStridedSlice S2048x64 ![0, o] (k1_pay3 (F := Ideal) v2) hk) (constant (F := Ideal) S512x2048 .f32 0x00000000#32))
    (broadcast S512x2048 (Scalar.ofBits (F := Ideal) .f32 0x3E000000#32))

/-- Each row's maximum, spread along the row. -/
def maxP (s : FVec Ideal S512x2048 .f32) : FVec Ideal S512x2048 .f32 :=
  broadcastTo S512x2048
    (shapeCast S512x1 (multiReduction (F := Ideal) .maximumf [1] S512 s 0xFF800000#32 reduces_S512x2048_S512 (.inl rfl) rfl)
      shapeCasts_S512_S512x1) broadcasts_S512x1_S512x2048

/-- Entry (k, d) of the head's value rows is lane o + d of value row k. -/
theorem sliceV_apply (o : Nat) (hk : S2048x128.Slices ![0, o] S2048x64) (v4 : Vec Ideal S1x2048x128 .bf16)
    (k : Fin 2048) (d : Fin 64) (hb : o + d.val < 128) :
    sliceV o hk v4 (ix2 k d) = v4 (ix3 (0 : Fin 1) k (⟨o + d.val, hb⟩ : Fin 128)) := by
  unfold sliceV k1_pay4
  refine (slice_lanes_apply o _ hk k d hb).trans ?_
  exact Cert.LibLeadAxis.cast_drop_apply v4 _ k _

/-- Entry (r, k) of the scaled scores: the lane product of query row r and key row k, times 1/8. -/
theorem scoreP_apply (o : Nat) (ho : o + 64 ≤ 128) (hq : S512x128.Slices ![0, o] S512x64) (hk : S2048x128.Slices ![0, o] S2048x64)
    (v0 : Vec Ideal S1x512x128 .bf16) (v2 : Vec Ideal S1x2048x128 .bf16) (r : Fin 512) (k : Fin 2048) :
    scoreP o hq hk v0 v2 (ix2 r k)
      = (∑ d : Fin 64, v0 (ix3 (0 : Fin 1) r (⟨o + d.val, by have := d.isLt; omega⟩ : Fin 128))
            * v2 (ix3 (0 : Fin 1) k (⟨o + d.val, by have := d.isLt; omega⟩ : Fin 128))) * Cert.Attn.scale := by
  unfold scoreP k1_pay2 k1_pay3
  refine (mulf_apply _ _ _).trans ?_
  refine congrArg₂ (· * ·) ?_ rfl
  rw [dotQK_eq]
  refine (Cert.LibDotForms.matmul_transposed_prec none _ _ r k).trans ?_
  refine Finset.sum_congr rfl fun d _ => ?_
  refine congrArg₂ (· * ·) ?_ ?_
  · refine (slice_lanes_apply o _ hq r d (by have := d.isLt; omega)).trans ?_
    exact Cert.LibLeadAxis.cast_drop_apply v0 _ r _
  · refine (slice_lanes_apply o _ hk k d (by have := d.isLt; omega)).trans ?_
    exact Cert.LibLeadAxis.cast_drop_apply v2 _ k _

/-- Entry (r, k) of the spread maxima is the maximum of row r. -/
theorem maxP_apply (s : FVec Ideal S512x2048 .f32) (r : Fin 512) (k : Fin 2048) :
    maxP s (ix2 r k) = Cert.LibRowReduce.rowMax fun k' : Fin 2048 => s (ix2 r k') := by
  unfold maxP
  refine (Cert.LibColBroadcast.broadcastTo_a1_ab_apply _ _ r k).trans ?_
  refine (Cert.LibRowReduce.shapeCast_col_apply _ _ r).trans ?_
  exact Cert.LibRowReduce.multiReduction_max_row s _ _ _ r

/-- From scores s, spread maxima m and value rows vs: entry (r, d) of the stored head output is the sum over key rows
    of exp(s − m) over its row sum, times the value entry. -/
theorem tail_apply (vs : FVec Ideal S2048x64 .bf16) (s m : FVec Ideal S512x2048 .f32) (r : Fin 512) (d : Fin 64) :
    k1_pay1 (F := Ideal) vs s m (ix3 (0 : Fin 1) r d)
      = ∑ k : Fin 2048, Ideal.div (Ideal.exp (s (ix2 r k) - m (ix2 r k)))
            (∑ k' : Fin 2048, Ideal.exp (s (ix2 r k') - m (ix2 r k'))) * vs (ix2 k d) := by
  unfold k1_pay1
  refine (Cert.LibLeadAxis.cast_add_apply _ _ r d).trans ?_
  refine Eq.trans (truncf_apply (ψ := .bf16) _ bitsLt_bf16_f32 (ix2 r d)) ?_
  rw [dotPV_eq]
  refine (Cert.LibDotForms.matmul_plain_prec none _ _ r d).trans ?_
  refine Finset.sum_congr rfl fun k _ => ?_
  refine congrArg₂ (· * ·) ?_ rfl
  refine Eq.trans (truncf_apply (ψ := .bf16) _ bitsLt_bf16_f32 (ix2 r k)) ?_
  refine (divf_apply _ _ _).trans ?_
  refine congrArg₂ Ideal.div rfl ?_
  refine (Cert.LibColBroadcast.broadcastTo_a1_ab_apply _ _ r k).trans ?_
  refine (Cert.LibRowReduce.shapeCast_col_apply _ _ r).trans ?_
  exact Cert.LibRowReduce.multiReduction_add_row _ _ _ _ r

/-- The head in lane half hh: with o = 64·hh, entry (r, d) of the stored head output is the block head of the three blocks. -/
theorem head_apply (o : Nat) (hh : Fin 2) (ho : o = hh.val * 64) (hq : S512x128.Slices ![0, o] S512x64)
    (hk : S2048x128.Slices ![0, o] S2048x64) (v0 : Vec Ideal S1x512x128 .bf16) (v2 v4 : Vec Ideal S1x2048x128 .bf16)
    (r : Fin 512) (d : Fin 64) :
    k1_pay1 (F := Ideal) (sliceV o hk v4) (scoreP o hq hk v0 v2) (maxP (scoreP o hq hk v0 v2)) (ix3 (0 : Fin 1) r d)
      = Cert.Attn.bhead v0 v2 v4 hh r d := by
  subst ho
  have hlt : hh.val * 64 + 64 ≤ 128 := by have := hh.isLt; omega
  have hs : ∀ (r : Fin 512) (k : Fin 2048), scoreP (hh.val * 64) hq hk v0 v2 (ix2 r k) = Cert.Attn.bscore v0 v2 hh r k :=
    fun r k => scoreP_apply (hh.val * 64) hlt hq hk v0 v2 r k
  have hm : ∀ (r : Fin 512) (k : Fin 2048),
      maxP (scoreP (hh.val * 64) hq hk v0 v2) (ix2 r k) = Cert.Attn.bmax v0 v2 hh r := fun r k => by
    refine (maxP_apply _ r k).trans ?_
    exact congrArg Cert.LibRowReduce.rowMax (funext fun k' => hs r k')
  have hv : ∀ (k : Fin 2048), sliceV (hh.val * 64) hk v4 (ix2 k d) = v4 (ix3 (0 : Fin 1) k (Cert.Attn.lane hh d)) :=
    fun k => sliceV_apply (hh.val * 64) hk v4 k d (by have := d.isLt; omega)
  refine (tail_apply _ _ _ r d).trans ?_
  unfold Cert.Attn.bhead Cert.Attn.bprob Cert.Attn.bsum Cert.Attn.bexp
  refine Finset.sum_congr rfl fun k _ => ?_
  rw [hv k, hs r k, hm r k]
  refine congrArg (fun z => Ideal.div (Ideal.exp (Cert.Attn.bscore v0 v2 hh r k - Cert.Attn.bmax v0 v2 hh r)) z
      * v4 (ix3 (0 : Fin 1) k (Cert.Attn.lane hh d))) ?_
  exact Finset.sum_congr rfl fun k' _ => by rw [hs r k', hm r k']

end Cert.KernelIdeal.Pay

end
-- ==== Proof.PayAttn0.lean ====
/-
  The head in the low lane half (lanes 0 to 63) of a grid point, entry by entry.

  The stored value is the shared tail applied to the value rows, scaled scores and spread row maxima of the head that
  starts at lane 0, so entry (r, d) is the block head of the three blocks in lane half 0.
-/
import proofs.«122617_j58394375357204_2_alg».proof.Proof.PayAttnCommon

noncomputable section

namespace Cert.KernelIdeal.Pay

open Cert.KernelIdeal Cert.KernelIdeal.Gen Idealize.ShloMosaic Idealize.ShloMosaic.ValueIdx

/-- The low head's stored value is the shared tail of its value rows, scores and row maxima. -/
theorem pay5_eq (v0 : Vec Ideal S1x512x128 .bf16) (v2 v4 : Vec Ideal S1x2048x128 .bf16) :
    k1_pay5 (F := Ideal) v0 v2 v4
      = k1_pay1 (F := Ideal) (sliceV 0 slices_S2048x128_o0_0_S2048x64 v4)
          (scoreP 0 slices_S512x128_o0_0_S512x64 slices_S2048x128_o0_0_S2048x64 v0 v2)
          (maxP (scoreP 0 slices_S512x128_o0_0_S512x64 slices_S2048x128_o0_0_S2048x64 v0 v2)) := rfl

/-- Entry (r, d) of the low head's stored value. -/
theorem pay5_apply (v0 : Vec Ideal S1x512x128 .bf16) (v2 v4 : Vec Ideal S1x2048x128 .bf16) (r : Fin 512) (d : Fin 64) :
    k1_pay5 (F := Ideal) v0 v2 v4 (ix3 (0 : Fin 1) r d) = Cert.Attn.bhead v0 v2 v4 0 r d :=
  (congrFun (pay5_eq v0 v2 v4) (ix3 (0 : Fin 1) r d)).trans
    (head_apply 0 0 rfl slices_S512x128_o0_0_S512x64 slices_S2048x128_o0_0_S2048x64 v0 v2 v4 r d)

end Cert.KernelIdeal.Pay

end
-- ==== Proof.PayAttn1.lean ====
/-
  The head in the high lane half (lanes 64 to 127) of a grid point, entry by entry.

  Its value rows, scaled scores and spread row maxima are computed first and handed to the shared tail, so entry (r, d)
  of the stored value is the block head of the three blocks in lane half 1.
-/
import proofs.«122617_j58394375357204_2_alg».proof.Proof.PayAttnCommon

noncomputable section

namespace Cert.KernelIdeal.Pay

open Cert.KernelIdeal Cert.KernelIdeal.Gen Idealize.ShloMosaic Idealize.ShloMosaic.ValueIdx

/-- The high head's value rows. -/
theorem pay6_eq (v4 : Vec Ideal S1x2048x128 .bf16) :
    k1_pay6 (F := Ideal) v4 = sliceV 64 slices_S2048x128_o0_64_S2048x64 v4 := rfl

/-- The high head's scaled scores. -/
theorem pay7_eq (v0 : Vec Ideal S1x512x128 .bf16) (v2 : Vec Ideal S1x2048x128 .bf16) :
    k1_pay7 (F := Ideal) v0 v2 = scoreP 64 slices_S512x128_o0_64_S512x64 slices_S2048x128_o0_64_S2048x64 v0 v2 := rfl

/-- The high head's spread row maxima. -/
theorem pay8_eq (v0 : Vec Ideal S1x512x128 .bf16) (v2 : Vec Ideal S1x2048x128 .bf16) :
    k1_pay8 (F := Ideal) v0 v2 = maxP (scoreP 64 slices_S512x128_o0_64_S512x64 slices_S2048x128_o0_64_S2048x64 v0 v2) := rfl

/-- Entry (r, d) of the high head's stored value. -/
theorem pay1_apply (v0 : Vec Ideal S1x512x128 .bf16) (v2 v4 : Vec Ideal S1x2048x128 .bf16) (r : Fin 512) (d : Fin 64) :
    k1_pay1 (F := Ideal) (k1_pay6 v4) (k1_pay7 v0 v2) (k1_pay8 v0 v2) (ix3 (0 : Fin 1) r d) = Cert.Attn.bhead v0 v2 v4 1 r d := by
  rw [pay6_eq, pay7_eq, pay8_eq]
  exact head_apply 64 1 rfl slices_S512x128_o0_64_S512x64 slices_S2048x128_o0_64_S2048x64 v0 v2 v4 r d

end Cert.KernelIdeal.Pay

end
-- ==== Proof.Final1Pure.lean ====
/-
  A grid point's block head is a head of the whole attention.

  A grid point (batch b, head pair h2, query tile qt) sees query rows qt·512 + r and all key and value rows of batch b,
  through three column ranges of the projected rows: lanes h2·128 + l of the query part, (8 + h2)·128 + l of the key part
  and (16 + h2)·128 + l of the value part. With head h = 2·h2 + hh, column h·64 + d of a part is lane hh·64 + d of the
  pair's 128 lanes, so the block scores are the head's scores, and with them the maxima, the exponentials, the sums, the
  weights and the output. Column h2·128 + l of the mixed row is lane l mod 64 of head 2·h2 + l / 64.
-/
import proofs.«122617_j58394375357204_2_alg».proof.Proof.BlockSpec

noncomputable section

namespace Cert.Attn.Blk

open Idealize.ShloMosaic Idealize.ShloMosaic.ValueIdx Cert.Attn

/-- Head hh of head pair h2. -/
def hd (h2 : Fin 8) (hh : Fin 2) : Fin 16 := ⟨2 * h2.val + hh.val, by have := h2.isLt; have := hh.isLt; omega⟩

/-- Row r of query tile qt. -/
def qrow (qt : Fin 4) (r : Fin 512) : Fin 2048 := ⟨qt.val * 512 + r.val, by have := qt.isLt; have := r.isLt; omega⟩

/-- Lane l of block column o + h2 (o = 0, 8, 16 for the query, key and value parts). -/
def bcol (o : Nat) (ho : o ≤ 16) (h2 : Fin 8) (l : Fin 128) : Fin 3072 :=
  ⟨(o + h2.val) * 128 + l.val, by have := h2.isLt; have := l.isLt; omega⟩

section
variable (Q : Fin 4 → Fin 2048 → Fin 3072 → EReal) (qb : Sq.Idx → EReal) (kb vb : Sk.Idx → EReal)
  (b : Fin 4) (h2 : Fin 8) (qt : Fin 4) (hh : Fin 2)
  (hq : ∀ (r : Fin 512) (l : Fin 128), qb (ix3 (0 : Fin 1) r l) = Q b (qrow qt r) (bcol 0 (by omega) h2 l))
  (hk : ∀ (k : Fin 2048) (l : Fin 128), kb (ix3 (0 : Fin 1) k l) = Q b k (bcol 8 (by omega) h2 l))
  (hv : ∀ (k : Fin 2048) (l : Fin 128), vb (ix3 (0 : Fin 1) k l) = Q b k (bcol 16 (by omega) h2 l))

theorem bcol_q (d : Fin 64) : bcol 0 (by omega) h2 (lane hh d) = col 0 (hd h2 hh) d :=
  Fin.ext (by
    show (0 + h2.val) * 128 + (hh.val * 64 + d.val) = 0 * 1024 + (2 * h2.val + hh.val) * 64 + d.val
    omega)

theorem bcol_k (d : Fin 64) : bcol 8 (by omega) h2 (lane hh d) = col 1 (hd h2 hh) d :=
  Fin.ext (by
    show (8 + h2.val) * 128 + (hh.val * 64 + d.val) = 1 * 1024 + (2 * h2.val + hh.val) * 64 + d.val
    omega)

theorem bcol_v (d : Fin 64) : bcol 16 (by omega) h2 (lane hh d) = col 2 (hd h2 hh) d :=
  Fin.ext (by
    show (16 + h2.val) * 128 + (hh.val * 64 + d.val) = 2 * 1024 + (2 * h2.val + hh.val) * 64 + d.val
    omega)

include hq hk in
theorem bscore_eq (r : Fin 512) (k : Fin 2048) : bscore qb kb hh r k = score Q b (hd h2 hh) (qrow qt r) k := by
  unfold bscore score
  refine congrArg (· * scale) ?_
  refine Finset.sum_congr rfl fun d _ => ?_
  rw [hq r (lane hh d), hk k (lane hh d), bcol_q, bcol_k]

include hq hk in
theorem bmax_eq (r : Fin 512) : bmax qb kb hh r = rowMax Q b (hd h2 hh) (qrow qt r) := by
  unfold bmax rowMax
  exact congrArg (fun f => Finset.fold max ninf f (Finset.univ : Finset (Fin 2048)))
    (funext fun k => bscore_eq Q qb kb b h2 qt hh hq hk r k)

include hq hk in
theorem bexp_eq (r : Fin 512) (k : Fin 2048) : bexp qb kb hh r k = pexp Q b (hd h2 hh) (qrow qt r) k := by
  unfold bexp pexp
  rw [bscore_eq Q qb kb b h2 qt hh hq hk r k, bmax_eq Q qb kb b h2 qt hh hq hk r]

include hq hk in
theorem bsum_eq (r : Fin 512) : bsum qb kb hh r = rowSum Q b (hd h2 hh) (qrow qt r) := by
  unfold bsum rowSum
  exact Finset.sum_congr rfl fun k _ => bexp_eq Q qb kb b h2 qt hh hq hk r k

include hq hk in
theorem bprob_eq (r : Fin 512) (k : Fin 2048) : bprob qb kb hh r k = prob Q b (hd h2 hh) (qrow qt r) k := by
  unfold bprob prob
  rw [bexp_eq Q qb kb b h2 qt hh hq hk r k, bsum_eq Q qb kb b h2 qt hh hq hk r]

include hq hk hv in
/-- The block head is the head of the whole attention. -/
theorem bhead_eq (r : Fin 512) (d : Fin 64) : bhead qb kb vb hh r d = head Q b (qrow qt r) (hd h2 hh) d := by
  unfold bhead head
  refine Finset.sum_congr rfl fun k _ => ?_
  rw [bprob_eq Q qb kb b h2 qt hh hq hk r k, hv k (lane hh d), bcol_v]

/-- Column h2·128 + l of the mixed row is lane l mod 64 of head 2·h2 + l / 64. -/
theorem mix_bcol (t : Fin 2048) (l : Fin 128) :
    mix Q b t ⟨h2.val * 128 + l.val, by have := h2.isLt; have := l.isLt; omega⟩
      = head Q b t (hd h2 ⟨l.val / 64, by have := l.isLt; omega⟩) ⟨l.val % 64, by omega⟩ := by
  unfold mix
  refine congrArg₂ (head Q b t) (Fin.ext ?_) (Fin.ext ?_)
  · show (h2.val * 128 + l.val) / 64 = 2 * h2.val + l.val / 64
    omega
  · show (h2.val * 128 + l.val) % 64 = l.val % 64
    omega

include hq hk hv in
/-- Row r, lane l of the point's output block is row qt·512 + r, column h2·128 + l of the mixed heads. -/
theorem bhead_eq_mix (r : Fin 512) (l : Fin 128) :
    bhead qb kb vb ⟨l.val / 64, by have := l.isLt; omega⟩ r ⟨l.val % 64, by omega⟩
      = mix Q b (qrow qt r) ⟨h2.val * 128 + l.val, by have := h2.isLt; have := l.isLt; omega⟩ :=
  (bhead_eq Q qb kb vb b h2 qt ⟨l.val / 64, by have := l.isLt; omega⟩ hq hk hv r ⟨l.val % 64, by omega⟩).trans
    (mix_bcol Q b h2 (qrow qt r) l).symm

end

end Cert.Attn.Blk

end
-- ==== Proof.Final1Blocks.lean ====
/-
  What one attention grid point writes back, as a block of the mixed heads of the projected rows.

  The output's staging buffer after the body is two stores side by side: lanes 64 to 127 hold the high head's result and
  lanes 0 to 63 the low head's, so row r, lane l of the buffer is the block head of the three input blocks in lane half
  l / 64 at lane l mod 64. The three input blocks are the point's query rows and all key and value rows of its batch,
  read through three column ranges of the one projected array; hence the buffer is the point's block of the mixed heads.
-/
import proofs.«122617_j58394375357204_2_alg».proof.Proof.Reg1
import proofs.«122617_j58394375357204_2_alg».proof.Proof.PayAttn0
import proofs.«122617_j58394375357204_2_alg».proof.Proof.PayAttn1
import proofs.«122617_j58394375357204_2_alg».proof.Proof.Final1Pure
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- The mixed heads of the projected rows, as an array. -/
def G1 (qkv : FVec Ideal S4x2048x3072 .bf16) : FVec Ideal S4x2048x1024 .bf16 :=
  fun i => Cert.Attn.mix (fun b t e => qkv (ix3 b t e)) (i 0) (i 1) (i 2)

theorem f1_hz : (![0, 0, 0] : Fin 3 → Nat) = fun _ => 0 := funext fun a => by fin_cases a <;> rfl

/-- The staging buffer after the body: the loads read the whole blocks. -/
theorem out1_3_eq (x0 : Vec Ideal S1x512x128 .bf16) (x1 x2 : Vec Ideal S1x2048x128 .bf16) :
    out1_3 (F := Ideal) x0 x1 x2
      = View.canon [⟨r1_o1, k1_pay1 (F := Ideal) (k1_pay6 x2) (k1_pay7 x0 x1) (k1_pay8 x0 x1)⟩, ⟨r1_o0, k1_pay5 (F := Ideal) x0 x1 x2⟩] := by
  unfold out1_3
  simp only [View.ld_unit_zero (S := S1x512x128) f1_hz, View.ld_unit_zero (S := S1x2048x128) f1_hz]

/-- Row r, lane l of the staging buffer after the body. -/
theorem out1_3_apply (x0 : Vec Ideal S1x512x128 .bf16) (x1 x2 : Vec Ideal S1x2048x128 .bf16) (r : Fin 512) (l : Fin 128) :
    out1_3 (F := Ideal) x0 x1 x2 (ix3 (0 : Fin 1) r l)
      = Cert.Attn.bhead x0 x1 x2 ⟨l.val / 64, by have := l.isLt; omega⟩ r ⟨l.val % 64, by omega⟩ := by
  have hl := l.isLt
  refine (congrFun (out1_3_eq x0 x1 x2) _).trans ?_
  by_cases h : l.val < 64
  · -- the low half: not under the last store, under the first
    have hy : (ix3 (0 : Fin 1) r l : S1x512x128.Idx) = r1_o0.emb (ix3 (0 : Fin 1) r (⟨l.val, h⟩ : Fin 64)) := by
      funext a; apply Fin.ext
      match a with
      | ⟨0, _⟩ => show (0 : Nat) = 0 + 1 * 0; omega
      | ⟨1, _⟩ => show r.val = 0 + 1 * r.val; omega
      | ⟨2, _⟩ => show l.val = 0 + 1 * l.val; omega
    refine (View.canon_cons_of_not_mem _ _ (fun hm => ?_)).trans ?_
    · have hm' : (ix3 (0 : Fin 1) r l : S1x512x128.Idx) ∈ r1_o1.set := hm
      have h2 := (Rect.mem_set_unit (inb := inb_S1x512x128_S1x512x64_0_0_64)).mp hm' (2 : Fin 3)
      have h3 : 64 ≤ l.val := h2.1
      omega
    refine (congrArg _ hy).trans ?_
    refine (View.canon_cons_emb r1_o0 _ _ _).trans ?_
    refine (Cert.KernelIdeal.Pay.pay5_apply x0 x1 x2 r ⟨l.val, h⟩).trans ?_
    refine congrArg₂ (fun a b => Cert.Attn.bhead x0 x1 x2 a r b) (Fin.ext ?_) (Fin.ext ?_)
    · show (0 : Nat) = l.val / 64; omega
    · show l.val = l.val % 64; omega
  · -- the high half: under the last store
    have hy : (ix3 (0 : Fin 1) r l : S1x512x128.Idx) = r1_o1.emb (ix3 (0 : Fin 1) r (⟨l.val - 64, by omega⟩ : Fin 64)) := by
      funext a; apply Fin.ext
      match a with
      | ⟨0, _⟩ => show (0 : Nat) = 0 + 1 * 0; omega
      | ⟨1, _⟩ => show r.val = 0 + 1 * r.val; omega
      | ⟨2, _⟩ => show l.val = 64 + 1 * (l.val - 64); omega
    refine (congrArg _ hy).trans ?_
    refine (View.canon_cons_emb r1_o1 _ _ _).trans ?_
    refine (Cert.KernelIdeal.Pay.pay1_apply x0 x1 x2 r ⟨l.val - 64, by omega⟩).trans ?_
    refine congrArg₂ (fun a b => Cert.Attn.bhead x0 x1 x2 a r b) (Fin.ext ?_) (Fin.ext ?_)
    · show (1 : Nat) = l.val / 64; omega
    · show l.val - 64 = l.val % 64; omega

/-- A POINT'S BLOCK, over variables: if the three input blocks are the reads of one array qkv at batch b, query tile qt and
    head pair h2, the staging buffer after the body is, at row r and lane l, the mixed heads at (b, qt·512 + r, h2·128 + l). -/
theorem f1_point_apply (qkv : FVec Ideal S4x2048x3072 .bf16) (x0 : Vec Ideal S1x512x128 .bf16) (x1 x2 : Vec Ideal S1x2048x128 .bf16)
    (b : Fin 4) (h2 : Fin 8) (qt : Fin 4)
    (hx0 : ∀ (r : Fin 512) (l : Fin 128), x0 (ix3 (0 : Fin 1) r l) = qkv (ix3 b (Cert.Attn.Blk.qrow qt r) (Cert.Attn.Blk.bcol 0 (by omega) h2 l)))
    (hx1 : ∀ (k : Fin 2048) (l : Fin 128), x1 (ix3 (0 : Fin 1) k l) = qkv (ix3 b k (Cert.Attn.Blk.bcol 8 (by omega) h2 l)))
    (hx2 : ∀ (k : Fin 2048) (l : Fin 128), x2 (ix3 (0 : Fin 1) k l) = qkv (ix3 b k (Cert.Attn.Blk.bcol 16 (by omega) h2 l)))
    (r : Fin 512) (l : Fin 128) :
    out1_3 (F := Ideal) x0 x1 x2 (ix3 (0 : Fin 1) r l)
      = G1 qkv (ix3 b (Cert.Attn.Blk.qrow qt r) (⟨h2.val * 128 + l.val, by have := h2.isLt; have := l.isLt; omega⟩ : Fin 1024)) :=
  (out1_3_apply x0 x1 x2 r l).trans
    (Cert.Attn.Blk.bhead_eq_mix (fun b t e => qkv (ix3 b t e)) x0 x1 x2 b h2 qt hx0 hx1 hx2 r l)

end Cert.KernelIdeal.Hand

end
-- ==== Proof.Final1.lean ====
/-
  From the attention region's blocks to its output array.

  The region's 128 grid points (batch b, head pair h2, query tile qt) each write back the block of 512 rows and 128
  columns at block index (b, qt, h2) of the output array. What a point writes back is that block of the mixed heads of
  the projected rows: its three input blocks are the reads of the one projected array at block indices (b, qt, h2),
  (b, 0, 8 + h2) and (b, 0, 16 + h2). The 128 blocks tile the output array, so after the region it holds the mixed heads.
-/
import proofs.«122617_j58394375357204_2_alg».proof.Proof.Final1Blocks

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The printed index maps, decided over the grid: the query window moves with the output window, the key and value
    windows sit 8 and 16 block columns further at block row 0, and the output's block indices stay in their ranges. -/
theorem f1_idx_facts : ∀ t : Fin cfg1.N,
    win1_0.index t (0 : Fin 3) = win1_3.index t (0 : Fin 3) ∧ win1_0.index t (1 : Fin 3) = win1_3.index t (1 : Fin 3)
    ∧ win1_0.index t (2 : Fin 3) = win1_3.index t (2 : Fin 3)
    ∧ win1_1.index t (0 : Fin 3) = win1_3.index t (0 : Fin 3) ∧ win1_1.index t (1 : Fin 3) = 0
    ∧ win1_1.index t (2 : Fin 3) = 8 + win1_3.index t (2 : Fin 3)
    ∧ win1_2.index t (0 : Fin 3) = win1_3.index t (0 : Fin 3) ∧ win1_2.index t (1 : Fin 3) = 0
    ∧ win1_2.index t (2 : Fin 3) = 16 + win1_3.index t (2 : Fin 3)
    ∧ win1_3.index t (0 : Fin 3) < 4 ∧ win1_3.index t (1 : Fin 3) < 4 ∧ win1_3.index t (2 : Fin 3) < 8 :=
  (by decide +kernel : ∀ t : Fin grid1.N, _)

/-- Every block of the output array is some point's. -/
theorem f1_idx_onto : ∀ (q0 : Fin 4) (q1 : Fin 4) (q2 : Fin 8), ∃ t : Fin cfg1.N, win1_3.index t = ![q0.val, q1.val, q2.val] :=
  (by decide +kernel : ∀ (q0 : Fin 4) (q1 : Fin 4) (q2 : Fin 8), ∃ t : Fin grid1.N, win1_3.index t = ![q0.val, q1.val, q2.val])

/-- The query window's block at point t, read at (0, r, l). -/
theorem f1_iblk0_apply (c : Dev nD) (t : Fin cfg1.N) (r : Fin 512) (l : Fin 128) (k : S4x2048x3072.Idx)
    (hk0 : (k 0).val = win1_0.index t (0 : Fin 3)) (hk1 : (k 1).val = win1_0.index t (1 : Fin 3) * 512 + r.val)
    (hk2 : (k 2).val = win1_0.index t (2 : Fin 3) * 128 + l.val) :
    (iblk1 V c 0 t : Vec Ideal S1x512x128 .bf16) (ix3 (0 : Fin 1) r l) = (V c main_v2 : S4x2048x3072.Idx → Elt Ideal .bf16) k := by
  unfold iblk1
  rw [View.read_apply]
  show V c main_v2 _ = V c main_v2 _
  refine congrArg (V c main_v2) ?_
  funext a; apply Fin.ext
  match a with
  | ⟨0, _⟩ => show win1_0.index t (0 : Fin 3) * 1 + 1 * (0 : Nat) = (k 0).val; rw [hk0]; omega
  | ⟨1, _⟩ => show win1_0.index t (1 : Fin 3) * 512 + 1 * r.val = (k 1).val; rw [hk1]; omega
  | ⟨2, _⟩ => show win1_0.index t (2 : Fin 3) * 128 + 1 * l.val = (k 2).val; rw [hk2]; omega

/-- The key window's block at point t, read at (0, r, l). -/
theorem f1_iblk1_apply (c : Dev nD) (t : Fin cfg1.N) (r : Fin 2048) (l : Fin 128) (k : S4x2048x3072.Idx)
    (hk0 : (k 0).val = win1_1.index t (0 : Fin 3)) (hk1 : (k 1).val = win1_1.index t (1 : Fin 3) * 2048 + r.val)
    (hk2 : (k 2).val = win1_1.index t (2 : Fin 3) * 128 + l.val) :
    (iblk1 V c 1 t : Vec Ideal S1x2048x128 .bf16) (ix3 (0 : Fin 1) r l) = (V c main_v2 : S4x2048x3072.Idx → Elt Ideal .bf16) k := by
  unfold iblk1
  rw [View.read_apply]
  show V c main_v2 _ = V c main_v2 _
  refine congrArg (V c main_v2) ?_
  funext a; apply Fin.ext
  match a with
  | ⟨0, _⟩ => show win1_1.index t (0 : Fin 3) * 1 + 1 * (0 : Nat) = (k 0).val; rw [hk0]; omega
  | ⟨1, _⟩ => show win1_1.index t (1 : Fin 3) * 2048 + 1 * r.val = (k 1).val; rw [hk1]; omega
  | ⟨2, _⟩ => show win1_1.index t (2 : Fin 3) * 128 + 1 * l.val = (k 2).val; rw [hk2]; omega

/-- The value window's block at point t, read at (0, r, l). -/
theorem f1_iblk2_apply (c : Dev nD) (t : Fin cfg1.N) (r : Fin 2048) (l : Fin 128) (k : S4x2048x3072.Idx)
    (hk0 : (k 0).val = win1_2.index t (0 : Fin 3)) (hk1 : (k 1).val = win1_2.index t (1 : Fin 3) * 2048 + r.val)
    (hk2 : (k 2).val = win1_2.index t (2 : Fin 3) * 128 + l.val) :
    (iblk1 V c 2 t : Vec Ideal S1x2048x128 .bf16) (ix3 (0 : Fin 1) r l) = (V c main_v2 : S4x2048x3072.Idx → Elt Ideal .bf16) k := by
  unfold iblk1
  rw [View.read_apply]
  show V c main_v2 _ = V c main_v2 _
  refine congrArg (V c main_v2) ?_
  funext a; apply Fin.ext
  match a with
  | ⟨0, _⟩ => show win1_2.index t (0 : Fin 3) * 1 + 1 * (0 : Nat) = (k 0).val; rw [hk0]; omega
  | ⟨1, _⟩ => show win1_2.index t (1 : Fin 3) * 2048 + 1 * r.val = (k 1).val; rw [hk1]; omega
  | ⟨2, _⟩ => show win1_2.index t (2 : Fin 3) * 128 + 1 * l.val = (k 2).val; rw [hk2]; omega

/-- The staging buffer after the body at point t, at a block index y, is the mixed heads at the array index under y. -/
theorem f1_point (c : Dev nD) (t : Fin cfg1.N) (y : S1x512x128.Idx) :
    out1_3 (F := Ideal) (iblk1 V c 0 t) (iblk1 V c 1 t) (iblk1 V c 2 t) y
      = G1 (V c main_v2) (((cfg1.win 3).blk t).view.emb y) := by
  obtain ⟨e00, e01, e02, e10, e11, e12, e20, e21, e22, b0, b1, b2⟩ := f1_idx_facts t
  have hy0 : (y 0).val < 1 := (y 0).isLt
  have hy1 : (y 1).val < 512 := (y 1).isLt
  have hy2 : (y 2).val < 128 := (y 2).isLt
  have ey : y = ix3 (0 : Fin 1) (⟨(y 1).val, hy1⟩ : Fin 512) (⟨(y 2).val, hy2⟩ : Fin 128) := by
    funext a; apply Fin.ext
    match a with
    | ⟨0, _⟩ => show (y 0).val = 0; omega
    | ⟨1, _⟩ => rfl
    | ⟨2, _⟩ => rfl
  have eemb : ((cfg1.win 3).blk t).view.emb y
      = ix3 (⟨win1_3.index t (0 : Fin 3), b0⟩ : Fin 4)
          (Cert.Attn.Blk.qrow (⟨win1_3.index t (1 : Fin 3), b1⟩ : Fin 4) (⟨(y 1).val, hy1⟩ : Fin 512))
          (⟨win1_3.index t (2 : Fin 3) * 128 + (y 2).val, by omega⟩ : Fin 1024) := by
    funext a; apply Fin.ext
    match a with
    | ⟨0, _⟩ => show win1_3.index t (0 : Fin 3) * 1 + 1 * (y 0).val = win1_3.index t (0 : Fin 3); omega
    | ⟨1, _⟩ => show win1_3.index t (1 : Fin 3) * 512 + 1 * (y 1).val = win1_3.index t (1 : Fin 3) * 512 + (y 1).val; omega
    | ⟨2, _⟩ => show win1_3.index t (2 : Fin 3) * 128 + 1 * (y 2).val = win1_3.index t (2 : Fin 3) * 128 + (y 2).val; omega
  refine (congrArg (out1_3 (F := Ideal) (iblk1 V c 0 t) (iblk1 V c 1 t) (iblk1 V c 2 t)) ey).trans ?_
  refine Eq.trans ?_ (congrArg (G1 (V c main_v2)) eemb).symm
  refine f1_point_apply (V c main_v2) (iblk1 V c 0 t) (iblk1 V c 1 t) (iblk1 V c 2 t)
    (⟨win1_3.index t (0 : Fin 3), b0⟩ : Fin 4) (⟨win1_3.index t (2 : Fin 3), b2⟩ : Fin 8) (⟨win1_3.index t (1 : Fin 3), b1⟩ : Fin 4)
    (fun r l => ?_) (fun k l => ?_) (fun k l => ?_) (⟨(y 1).val, hy1⟩ : Fin 512) (⟨(y 2).val, hy2⟩ : Fin 128)
  · refine f1_iblk0_apply V c t r l _ ?_ ?_ ?_
    · show win1_3.index t (0 : Fin 3) = win1_0.index t (0 : Fin 3); omega
    · show win1_3.index t (1 : Fin 3) * 512 + r.val = win1_0.index t (1 : Fin 3) * 512 + r.val; omega
    · show (0 + win1_3.index t (2 : Fin 3)) * 128 + l.val = win1_0.index t (2 : Fin 3) * 128 + l.val; omega
  · refine f1_iblk1_apply V c t k l _ ?_ ?_ ?_
    · show win1_3.index t (0 : Fin 3) = win1_1.index t (0 : Fin 3); omega
    · show k.val = win1_1.index t (1 : Fin 3) * 2048 + k.val; omega
    · show (8 + win1_3.index t (2 : Fin 3)) * 128 + l.val = win1_1.index t (2 : Fin 3) * 128 + l.val; omega
  · refine f1_iblk2_apply V c t k l _ ?_ ?_ ?_
    · show win1_3.index t (0 : Fin 3) = win1_2.index t (0 : Fin 3); omega
    · show k.val = win1_2.index t (1 : Fin 3) * 2048 + k.val; omega
    · show (16 + win1_3.index t (2 : Fin 3)) * 128 + l.val = win1_2.index t (2 : Fin 3) * 128 + l.val; omega

/-- WHAT POINT t WRITES BACK is block t of the mixed heads of the projected rows as the region finds them. -/
theorem f1_flushed_eq (c : Dev nD) (t : Fin cfg1.N) :
    (dat1 (F := Ideal) V c).flushed 3 t = ((cfg1.win 3).blk t).view.read (Elt Ideal) (G1 (V c main_v2)) := by
  show (cfg1.win 3).cut (grid1.coords t) ((dat1 V c).after 3 t) = _
  rw [after1_3]
  funext y
  exact f1_point V c t y

/-- An index of the output array is in point t's block iff each coordinate is in the block's range on its axis. -/
theorem f1_mem_blk (t : Fin cfg1.N) (i : S4x2048x1024.Idx) :
    i ∈ ((cfg1.win 3).blk t).view.set ↔ ∀ a : Fin 3, win1_3.index t a * S1x512x128.size a ≤ (i a).val
      ∧ (i a).val < win1_3.index t a * S1x512x128.size a + S1x512x128.size a := by
  show i ∈ ((View.whole main_v3).slice (win1_3.rect t)).set ↔ _
  rw [View.set_slice_whole, Rect.mem_set_unit]
  exact Iff.rfl

/-- The blocks tile the output array: row (b, s, c) is in the block of the point with block index (b, s / 512, c / 128). -/
theorem f1_cover (i : S4x2048x1024.Idx) :
    ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  obtain ⟨t, ht⟩ := f1_idx_onto ⟨(i 0).val, hi0⟩ ⟨(i 1).val / 512, by omega⟩ ⟨(i 2).val / 128, by omega⟩
  have q0 : win1_3.index t (0 : Fin 3) = (i 0).val := congrFun ht 0
  have q1 : win1_3.index t (1 : Fin 3) = (i 1).val / 512 := congrFun ht 1
  have q2 : win1_3.index t (2 : Fin 3) = (i 2).val / 128 := congrFun ht 2
  refine ⟨t, flush1_3 t, ?_⟩
  rw [f1_mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 128 ≤ (i 2).val ∧ (i 2).val < win1_3.index t (2 : Fin 3) * 128 + 128; omega

/-- THE OUTPUT ARRAY after the region: the mixed heads of the projected rows. -/
theorem final1 (c : Dev nD) : (dat1 (F := Ideal) V c).arrAt 3 cfg1.N = G1 (V c main_v2) :=
  (dat1 (F := Ideal) V c).arrAt_eq_of_cover 3 (G1 (V c main_v2)) (fun t _ => f1_flushed_eq V c t) f1_cover

end Cert.KernelIdeal.Hand

end
-- ==== Proof.Final2.lean ====
/-
  The second projection's region, from blocks to the array.

  Each of the 32 grid points writes back one block of 256 result rows, all 1024 columns. The block's entry (p, q) is the
  product of row p of the point's block of mixed heads, which is row 256·t + p of that array, with row q of the second
  weight; so the block is block t of ONE function of the two arrays, Σ_d a[r, d] · w[e, d]. The 32 blocks tile the
  result array (row r lies in block r / 256), hence after the region the array holds that function.
-/
import proofs.«122617_j58394375357204_2_alg».proof.Proof.Reg2
import proofs.«122617_j58394375357204_2_alg».proof.Proof.PayProj
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

-- the TensorCore's buffer contents when the region is entered
variable (V : (c : Dev nD) → (b : Ref sig .tc) → Buf (Elt Ideal) ((c : Thread nD τ).loc b))

theorem hz2 : (![0, 0] : Fin 2 → Nat) = fun _ => 0 := funext fun a => by fin_cases a <;> rfl

/-- The product the region computes, as one function of the two arrays: entry (r, e) is Σ_d a[r, d] · w[e, d]. -/
def G2 (a : FVec Ideal S8192x1024 .bf16) (w : FVec Ideal S1024x1024 .f32) : FVec Ideal S8192x1024 .f32 :=
  fun i => ∑ d : Fin 1024, a (ix2 (i 0) d) * w (ix2 (i 1) d)

/-- The windows' block indices at every grid point: the row blocks move with the point, the weight's block stays. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The row window's block at point t is rows 256·t … 256·t + 255 of its array. -/
theorem iblk2_0_apply (c : Dev nD) (t : Fin cfg2.N) (x : S256x1024.Idx) (k : S8192x1024.Idx)
    (hk0 : (k 0).val = t.val * 256 + (x 0).val) (hk1 : (k 1).val = (x 1).val) :
    (iblk2 V c 0 t : Vec Ideal S256x1024 .bf16) x = (V c main_v4 : S8192x1024.Idx → EReal) k := by
  obtain ⟨e0, e1, -⟩ := idx_facts2 t
  unfold iblk2
  rw [View.read_apply]
  show V c main_v4 _ = V c main_v4 _
  congr 1
  funext a
  apply Fin.ext
  match a with
  | ⟨0, _⟩ => show win2_0.index t 0 * 256 + 1 * (x 0).val = (k 0).val; rw [e0, hk0]; omega
  | ⟨1, _⟩ => show win2_0.index t 1 * 1024 + 1 * (x 1).val = (k 1).val; rw [e1, hk1]; omega

/-- The weight window's block at every point is the whole weight. -/
theorem iblk2_1_apply (c : Dev nD) (t : Fin cfg2.N) (x : S1024x1024.Idx) :
    (iblk2 V c 1 t : Vec Ideal S1024x1024 .f32) x = (V c main_arg2 : S1024x1024.Idx → EReal) x := by
  obtain ⟨-, -, e2, e3, -⟩ := idx_facts2 t
  unfold iblk2
  rw [View.read_apply]
  show V c main_arg2 _ = V c main_arg2 _
  congr 1
  funext a
  apply Fin.ext
  match a with
  | ⟨0, _⟩ => show win2_1.index t 0 * 1024 + 1 * (x 0).val = (x 0).val; rw [e2]; omega
  | ⟨1, _⟩ => show win2_1.index t 1 * 1024 + 1 * (x 1).val = (x 1).val; rw [e3]; omega

/-- One entry of a stored block, when the row block holds rows of a and the weight block is w: the product's entry. -/
theorem point2 (a : FVec Ideal S8192x1024 .bf16) (w : FVec Ideal S1024x1024 .f32)
    (ba : FVec Ideal S256x1024 .bf16) (bw : FVec Ideal S1024x1024 .f32) (r : Fin 8192) (p : Fin 256) (q : Fin 1024)
    (hba : ∀ d : Fin 1024, ba (ix2 p d) = a (ix2 r d)) (hbw : ∀ d : Fin 1024, bw (ix2 q d) = w (ix2 q d)) :
    k2_pay1 (F := Ideal) ba bw (ix2 p q) = G2 a w (ix2 r q) := by
  refine (Cert.KernelIdeal.Pay.pay2_apply ba bw p q).trans ?_
  unfold G2
  exact Finset.sum_congr rfl fun d _ => by rw [hba d, hbw d]

/-- What point t writes back is block t of the product of the arrays as the region finds them. -/
theorem flushed2_eq (c : Dev nD) (t : Fin cfg2.N) :
    (dat2 (F := Ideal) V c).flushed 2 t = ((cfg2.win 2).blk t).view.read (Elt Ideal) (G2 (V c main_v4) (V c main_arg2)) := by
  show (cfg2.win 2).cut (grid2.coords t) ((dat2 V c).after 2 t) = _
  rw [after2_2]
  unfold out2_2
  rw [View.canon_unit_zero hz2]
  simp only [View.ld_unit_zero (S := S256x1024) hz2, View.ld_unit_zero (S := S1024x1024) hz2]
  obtain ⟨-, -, -, -, e4, e5⟩ := idx_facts2 t
  have hN : grid2.N = 32 := N_2
  have ht : t.val < 32 := hN ▸ t.isLt
  funext j
  have hj0 : (j 0).val < 256 := (j 0).isLt
  have hj1 : (j 1).val < 1024 := (j 1).isLt
  have hx : (win2 2).xinj (grid2.coords t) j = ix2 (⟨(j 0).val, hj0⟩ : Fin 256) (⟨(j 1).val, hj1⟩ : Fin 1024) :=
    funext fun a => Fin.ext (by match a with | ⟨0, _⟩ => rfl | ⟨1, _⟩ => rfl)
  show k2_pay1 (F := Ideal) (iblk2 V c 0 t) (iblk2 V c 1 t) ((win2 2).xinj (grid2.coords t) j) = _
  refine (congrArg (k2_pay1 (F := Ideal) (iblk2 V c 0 t) (iblk2 V c 1 t)) hx).trans ?_
  refine (point2 (V c main_v4) (V c main_arg2) (iblk2 V c 0 t) (iblk2 V c 1 t)
    (⟨t.val * 256 + (j 0).val, by omega⟩ : Fin 8192) (⟨(j 0).val, hj0⟩ : Fin 256) (⟨(j 1).val, hj1⟩ : Fin 1024)
    (fun d => iblk2_0_apply V c t (ix2 (⟨(j 0).val, hj0⟩ : Fin 256) d)
      (ix2 (⟨t.val * 256 + (j 0).val, by omega⟩ : Fin 8192) d) rfl rfl)
    (fun d => iblk2_1_apply V c t (ix2 (⟨(j 1).val, hj1⟩ : Fin 1024) d))).trans ?_
  show G2 (V c main_v4) (V c main_arg2) _ = G2 (V c main_v4) (V c main_arg2) (((cfg2.win 2).blk t).view.emb j)
  refine congrArg (G2 (V c main_v4) (V c main_arg2)) (funext fun a => Fin.ext ?_)
  match a with
  | ⟨0, _⟩ => show t.val * 256 + (j 0).val = win2_2.index t (0 : Fin 2) * 256 + 1 * (j 0).val; rw [e4]; omega
  | ⟨1, _⟩ => show (j 1).val = win2_2.index t (1 : Fin 2) * 1024 + 1 * (j 1).val; rw [e5]; omega

/-- An index of the array is in point t's block iff each coordinate is in the block's range on its axis. -/
theorem mem_blk2 (t : Fin cfg2.N) (i : S8192x1024.Idx) :
    i ∈ ((cfg2.win 2).blk t).view.set ↔ ∀ a : Fin 2, win2_2.index t a * S256x1024.size a ≤ (i a).val ∧ (i a).val < win2_2.index t a * S256x1024.size a + S256x1024.size a := by
  show i ∈ ((View.whole main_v5).slice (win2_2.rect t)).set ↔ _
  rw [View.set_slice_whole, Rect.mem_set_unit]
  exact Iff.rfl

/-- Every index of the array is in the block of the point its row falls in: point (row / 256). -/
theorem cover2 (i : S8192x1024.Idx) :
    ∃ t : Fin cfg2.N, (cfg2.win 2).flush t = true ∧ i ∈ ((cfg2.win 2).blk t).view.set := by
  have hN : grid2.N = 32 := N_2
  have hi0 : (i 0).val < 8192 := (i 0).isLt
  have hi1 : (i 1).val < 1024 := (i 1).isLt
  have hlt : (i 0).val / 256 < grid2.N := by omega
  obtain ⟨-, -, -, -, e4, e5⟩ := idx_facts2 (⟨(i 0).val / 256, hlt⟩ : Fin cfg2.N)
  refine ⟨⟨(i 0).val / 256, hlt⟩, flush2_2 _, ?_⟩
  rw [mem_blk2]
  intro a
  match a with
  | ⟨0, _⟩ =>
    show win2_2.index ⟨(i 0).val / 256, hlt⟩ (0 : Fin 2) * 256 ≤ (i 0).val ∧ (i 0).val < win2_2.index ⟨(i 0).val / 256, hlt⟩ (0 : Fin 2) * 256 + 256
    rw [e4]
    show (i 0).val / 256 * 256 ≤ (i 0).val ∧ (i 0).val < (i 0).val / 256 * 256 + 256
    omega
  | ⟨1, _⟩ =>
    show win2_2.index ⟨(i 0).val / 256, hlt⟩ (1 : Fin 2) * 1024 ≤ (i 1).val ∧ (i 1).val < win2_2.index ⟨(i 0).val / 256, hlt⟩ (1 : Fin 2) * 1024 + 1024
    rw [e5]
    omega

/-- The output array after the region: the product of the two arrays as the region finds them. -/
theorem final2 (c : Dev nD) : (dat2 (F := Ideal) V c).arrAt 2 cfg2.N = G2 (V c main_v4) (V c main_arg2) :=
  (dat2 (F := Ideal) V c).arrAt_eq_of_cover 2 (G2 (V c main_v4) (V c main_arg2)) (fun t _ => flushed2_eq V c t) (fun i => cover2 i)

end Cert.KernelIdeal.Hand

end
-- ==== Proof.LibStackRows.lean ====
/-
  Rows stacked in slabs: an array [N, C] with N = A · B rows viewed as [A, B, C], and back, read at an index.

  In row-major order entry (a, b, c) of [A, B, C] and entry (a · B + b, c) of [N, C] sit at the same position,
  (a · B + b) · C + c. So [N, C] recast as [A, B, C] reads (a, b, c) at row a · B + b, and [A, B, C] recast as [N, C]
  reads row r at slab r / B, row r % B of the slab.
-/
import Idealize.ShloMosaic.Lib.Pipeline.Value
import Idealize.ShloMosaic.Lib.ValueIdx

noncomputable section

namespace Cert.LibStackRows

open Idealize.ShloMosaic Idealize.ShloMosaic.ValueIdx

variable {N A B C : Nat} {α : Type}

/-- Rows cut into slabs: entry (a, b, c) is entry c of row a · B + b. -/
theorem shapeCast_stack_apply (v : (⟨2, ![N, C]⟩ : Shape).Idx → α)
    (h : (⟨2, ![N, C]⟩ : Shape).ShapeCasts ⟨3, ![A, B, C]⟩) (a : Fin A) (b : Fin B) (c : Fin C) (r : Fin N)
    (hr : r.val = a.val * B + b.val) :
    shapeCast ⟨3, ![A, B, C]⟩ v h (ix3 a b c) = v (ix2 r c) := by
  refine shapeCast_apply v h _ _ ?_
  rw [Shape.rowMajor_val_three, Shape.rowMajor_val_two]
  show r.val * C + c.val = (a.val * B + b.val) * C + c.val
  rw [hr]

/-- Slabs laid end to end: row r is row r % B of slab r / B. -/
theorem shapeCast_unstack_apply (v : (⟨3, ![A, B, C]⟩ : Shape).Idx → α)
    (h : (⟨3, ![A, B, C]⟩ : Shape).ShapeCasts ⟨2, ![N, C]⟩) (r : Fin N) (c : Fin C) (a : Fin A) (b : Fin B)
    (ha : a.val = r.val / B) (hb : b.val = r.val % B) :
    shapeCast ⟨2, ![N, C]⟩ v h (ix2 r c) = v (ix3 a b c) := by
  refine shapeCast_apply v h _ _ ?_
  rw [Shape.rowMajor_val_three, Shape.rowMajor_val_two]
  show (a.val * B + b.val) * C + c.val = r.val * C + c.val
  rw [ha, hb, Nat.div_add_mod']

end Cert.LibStackRows

end
-- ==== Proof.ComposePure.lean ====
/-
  The three stages and the reshapes between them are the specification.

  The program computes in rows: the activations [4, 2048, 1024] are laid out as 8192 rows for the first projection, its
  8192 result rows are viewed as [4, 2048, 3072] for the attention, whose result is laid out as 8192 rows again for the
  second projection, whose rows are viewed as [4, 2048, 1024]. Row b · 2048 + t of the flat arrays is row (b, t) of the
  stacked ones, so: the first stage's rows are the projection of Spec.lean, the second stage's rows are the mixed heads
  of it, and the third stage's rows are the result.
-/
import proofs.«122617_j58394375357204_2_alg».proof.Proof.Spec
import proofs.«122617_j58394375357204_2_alg».proof.Proof.LibStackRows
import Idealize.ShloMosaic.Lib.Pipeline.Value

noncomputable section

namespace Cert.Attn

open Idealize.ShloMosaic Idealize.ShloMosaic.ValueIdx Cert.LibStackRows

abbrev Sx2 : Shape := ⟨2, ![8192, 1024]⟩
abbrev Sq2 : Shape := ⟨2, ![8192, 3072]⟩
abbrev Sq3 : Shape := ⟨3, ![4, 2048, 3072]⟩

theorem compose_pure (x : Sx.Idx → EReal) (wq : Swq.Idx → EReal) (wp : Swp.Idx → EReal)
    (h1 : Sx.ShapeCasts Sx2) (h2 : Sq2.ShapeCasts Sq3) (h3 : Sx.ShapeCasts Sx2) (h4 : Sx2.ShapeCasts Sx)
    (q1 : Sq2.Idx → EReal)
    (hq1 : ∀ (r : Fin 8192) (e : Fin 3072), q1 (ix2 r e) = ∑ d : Fin 1024, shapeCast Sx2 x h1 (ix2 r d) * wq (ix2 e d))
    (a3 : Sx.Idx → EReal)
    (ha3 : ∀ (b : Fin 4) (t : Fin 2048) (c : Fin 1024), a3 (ix3 b t c) = mix (fun b t e => shapeCast Sq3 q1 h2 (ix3 b t e)) b t c)
    (o5 : Sx2.Idx → EReal)
    (ho5 : ∀ (r : Fin 8192) (e : Fin 1024), o5 (ix2 r e) = ∑ c : Fin 1024, shapeCast Sx2 a3 h3 (ix2 r c) * wp (ix2 e c)) :
    shapeCast Sx o5 h4 = out x wq wp := by
  have hQ : (fun (b : Fin 4) (t : Fin 2048) (e : Fin 3072) => shapeCast Sq3 q1 h2 (ix3 b t e)) = proj x wq := by
    funext b t e
    have hb := b.isLt; have ht := t.isLt
    have hr : b.val * 2048 + t.val < 8192 := by omega
    rw [shapeCast_stack_apply q1 h2 b t e ⟨b.val * 2048 + t.val, hr⟩ rfl, hq1]
    unfold proj
    refine Finset.sum_congr rfl fun d _ => ?_
    rw [shapeCast_unstack_apply x h1 ⟨b.val * 2048 + t.val, hr⟩ d b t
      (by show b.val = (b.val * 2048 + t.val) / 2048; omega) (by show t.val = (b.val * 2048 + t.val) % 2048; omega)]
  funext i
  obtain ⟨b, t, e, rfl⟩ : ∃ (b : Fin 4) (t : Fin 2048) (e : Fin 1024), i = ix3 b t e := ⟨i 0, i 1, i 2, eq_ix3 i⟩
  have hb := b.isLt; have ht := t.isLt
  have hr : b.val * 2048 + t.val < 8192 := by omega
  rw [shapeCast_stack_apply o5 h4 b t e ⟨b.val * 2048 + t.val, hr⟩ rfl, ho5]
  unfold out
  refine Finset.sum_congr rfl fun c _ => ?_
  rw [shapeCast_unstack_apply a3 h3 ⟨b.val * 2048 + t.val, hr⟩ c b t
    (by show b.val = (b.val * 2048 + t.val) / 2048; omega) (by show t.val = (b.val * 2048 + t.val) % 2048; omega), ha3, hQ]

end Cert.Attn

end
-- ==== Proof.Value.lean ====
/-
  The idealized program's result buffer holds the specification of its arguments.

  Reading the run back: the result is the third region's rows viewed as [4, 2048, 1024]; each region's output array is a
  whole-array function of the arrays it read (the projections' row products, the attention's mixed heads); and the
  reshapes between them stack and unstack rows. Composed, index by index, that is Spec.lean's function of the three
  arguments as launched.
-/
import proofs.«122617_j58394375357204_2_alg».proof.Proof.Bridge
import proofs.«122617_j58394375357204_2_alg».proof.Proof.Final0
import proofs.«122617_j58394375357204_2_alg».proof.Proof.Final1
import proofs.«122617_j58394375357204_2_alg».proof.Proof.Final2
import proofs.«122617_j58394375357204_2_alg».proof.Proof.ComposePure

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The first region's output rows: the row products of the activations laid out as rows with the first weight. -/
theorem rows0 (c : Dev nD) :
    (dat0 (F := Ideal) (V1 m ρ) c).arrAt 2 cfg0.N
      = G0 (shapeCast S8192x1024 (m ((c : Thread nD τ).loc main_arg0)) shapeCasts_S4x2048x1024_S8192x1024) (m ((c : Thread nD τ).loc main_arg1)) := by
  rw [final0 (V1 m ρ) c, V1_v0, V1_arg1]

/-- The second region's output: the mixed heads of the first region's rows viewed as [4, 2048, 3072]. -/
theorem rows1 (c : Dev nD) :
    (dat1 (F := Ideal) (V3 m ρ) c).arrAt 3 cfg1.N
      = G1 (shapeCast S4x2048x3072
          (G0 (shapeCast S8192x1024 (m ((c : Thread nD τ).loc main_arg0)) shapeCasts_S4x2048x1024_S8192x1024) (m ((c : Thread nD τ).loc main_arg1)))
          shapeCasts_S8192x3072_S4x2048x3072) := by
  rw [final1 (V3 m ρ) c, V3_v2, rows0]

/-- The third region's output rows: the row products of the second region's output laid out as rows with the second weight. -/
theorem rows2 (c : Dev nD) :
    (dat2 (F := Ideal) (V5 m ρ) c).arrAt 2 cfg2.N
      = G2 (shapeCast S8192x1024
          (G1 (shapeCast S4x2048x3072
            (G0 (shapeCast S8192x1024 (m ((c : Thread nD τ).loc main_arg0)) shapeCasts_S4x2048x1024_S8192x1024) (m ((c : Thread nD τ).loc main_arg1)))
            shapeCasts_S8192x3072_S4x2048x3072))
          shapeCasts_S4x2048x1024_S8192x1024) (m ((c : Thread nD τ).loc main_arg2)) := by
  rw [final2 (V5 m ρ) c, V5_v4, V5_arg2, rows1]

/-- The result buffer at the end of the run is the specification of the arguments as launched. -/
theorem value_eq (c : Dev nD) :
    W7 m ρ c (Proc.devRef .tc main_v6)
      = Cert.Attn.out (m ((c : Thread nD τ).loc main_arg0)) (m ((c : Thread nD τ).loc main_arg1)) (m ((c : Thread nD τ).loc main_arg2)) := by
  rw [W7_v6, rows2]
  exact Cert.Attn.compose_pure (m ((c : Thread nD τ).loc main_arg0)) (m ((c : Thread nD τ).loc main_arg1)) (m ((c : Thread nD τ).loc main_arg2))
    shapeCasts_S4x2048x1024_S8192x1024 shapeCasts_S8192x3072_S4x2048x3072 shapeCasts_S4x2048x1024_S8192x1024 shapeCasts_S8192x1024_S4x2048x1024
    _ (fun r e => rfl) _ (fun b t c => rfl) _ (fun r e => rfl)

end Cert.KernelIdeal.Hand

end
-- ==== Proof.RefProj.lean ====
/-
  The reference's first product and its three parts, read at coordinates.

  The product of the activations with the transposed weight is, at (b, t, e), the projection Σ_d x[b,t,d]·w[e,d]. A part
  is 1024 consecutive columns of it; split into sixteen heads of sixty-four lanes with the head axis moved in front of
  the row axis, its element (b, h, t, d) is column o·1024 + h·64 + d of the projected row (b, t).
-/
import proofs.«122617_j58394375357204_2_alg».proof.Proof.Spec
import proofs.«122617_j58394375357204_2_alg».proof.Proof.Gen.ReferenceIdeal.Read

noncomputable section

open scoped BigOperators

namespace Cert.ReferenceIdeal.RefValue

open Idealize.ShloMosaic Idealize.ShloMosaic.ValueIdx Cert.ReferenceIdeal Cert.ReferenceIdeal.Read Cert.Attn

/-- The product of the activations with the transposed weight at (b, t, e) is the projection. -/
theorem v0_eq (x : (⟨S4x2048x1024, .f32⟩ : BufTy).Contents (Elt Ideal)) (wq : (⟨S3072x1024, .f32⟩ : BufTy).Contents (Elt Ideal))
    (b : Fin 4) (t : Fin 2048) (e : Fin 3072) :
    val_main_v0 (F := Ideal) x wq (ix3 b t e) = proj x wq b t e := by
  rw [val_main_v0_apply]
  unfold proj
  refine Finset.sum_congr rfl fun d _ => ?_
  have e1 : lidx_main_v0 (ix3 b t e) d = ix3 b t d :=
    funext fun a => Fin.ext (by match a with | ⟨0, _⟩ => rfl | ⟨1, _⟩ => rfl | ⟨2, _⟩ => rfl)
  have e2 : ridx_main_v0 (ix3 b t e) d = ix2 e d :=
    funext fun a => Fin.ext (by match a with | ⟨0, _⟩ => rfl | ⟨1, _⟩ => rfl)
  rw [e1, e2]

/-- Element (b, h, t, d) of part 0, split into heads and with the head axis moved forward, is column 0 + h·64 + d of the projected row (b, t). -/
theorem v5_eq (x : (⟨S4x2048x1024, .f32⟩ : BufTy).Contents (Elt Ideal)) (wq : (⟨S3072x1024, .f32⟩ : BufTy).Contents (Elt Ideal))
    (b : Fin 4) (h : Fin 16) (t : Fin 2048) (d : Fin 64) :
    val_main_v5 (F := Ideal) x wq (ix4 b h t d) = proj x wq b t (col 0 h d) := by
  rw [val_main_v5_apply, val_main_v4_apply, val_main_v1_apply]
  have hb := b.isLt
  have hh := h.isLt
  have ht := t.isLt
  have hd := d.isLt
  have e : idx_main_v1 (idx_main_v4 (idx_main_v5 (ix4 b h t d))) = ix3 b t (col 0 h d) :=
    funext fun a => Fin.ext (by
      match a with
      | ⟨0, _⟩ =>
        show (((b.val * 2048 + t.val) * 16 + h.val) * 64 + d.val) / 2097152 = b.val
        omega
      | ⟨1, _⟩ =>
        show (((b.val * 2048 + t.val) * 16 + h.val) * 64 + d.val) / 1024 % 2048 = t.val
        omega
      | ⟨2, _⟩ =>
        show (((b.val * 2048 + t.val) * 16 + h.val) * 64 + d.val) % 1024 = 0 * 1024 + h.val * 64 + d.val
        omega)
  rw [e]
  exact v0_eq x wq b t (col 0 h d)

/-- Element (b, h, t, d) of part 1, split into heads and with the head axis moved forward, is column 1024 + h·64 + d of the projected row (b, t). -/
theorem v7_eq (x : (⟨S4x2048x1024, .f32⟩ : BufTy).Contents (Elt Ideal)) (wq : (⟨S3072x1024, .f32⟩ : BufTy).Contents (Elt Ideal))
    (b : Fin 4) (h : Fin 16) (t : Fin 2048) (d : Fin 64) :
    val_main_v7 (F := Ideal) x wq (ix4 b h t d) = proj x wq b t (col 1 h d) := by
  rw [val_main_v7_apply, val_main_v6_apply, val_main_v2_apply]
  have hb := b.isLt
  have hh := h.isLt
  have ht := t.isLt
  have hd := d.isLt
  have e : idx_main_v2 (idx_main_v6 (idx_main_v7 (ix4 b h t d))) = ix3 b t (col 1 h d) :=
    funext fun a => Fin.ext (by
      match a with
      | ⟨0, _⟩ =>
        show (((b.val * 2048 + t.val) * 16 + h.val) * 64 + d.val) / 2097152 = b.val
        omega
      | ⟨1, _⟩ =>
        show (((b.val * 2048 + t.val) * 16 + h.val) * 64 + d.val) / 1024 % 2048 = t.val
        omega
      | ⟨2, _⟩ =>
        show 1024 + (((b.val * 2048 + t.val) * 16 + h.val) * 64 + d.val) % 1024 = 1 * 1024 + h.val * 64 + d.val
        omega)
  rw [e]
  exact v0_eq x wq b t (col 1 h d)

/-- Element (b, h, t, d) of part 2, split into heads and with the head axis moved forward, is column 2048 + h·64 + d of the projected row (b, t). -/
theorem v9_eq (x : (⟨S4x2048x1024, .f32⟩ : BufTy).Contents (Elt Ideal)) (wq : (⟨S3072x1024, .f32⟩ : BufTy).Contents (Elt Ideal))
    (b : Fin 4) (h : Fin 16) (t : Fin 2048) (d : Fin 64) :
    val_main_v9 (F := Ideal) x wq (ix4 b h t d) = proj x wq b t (col 2 h d) := by
  rw [val_main_v9_apply, val_main_v8_apply, val_main_v3_apply]
  have hb := b.isLt
  have hh := h.isLt
  have ht := t.isLt
  have hd := d.isLt
  have e : idx_main_v3 (idx_main_v8 (idx_main_v9 (ix4 b h t d))) = ix3 b t (col 2 h d) :=
    funext fun a => Fin.ext (by
      match a with
      | ⟨0, _⟩ =>
        show (((b.val * 2048 + t.val) * 16 + h.val) * 64 + d.val) / 2097152 = b.val
        omega
      | ⟨1, _⟩ =>
        show (((b.val * 2048 + t.val) * 16 + h.val) * 64 + d.val) / 1024 % 2048 = t.val
        omega
      | ⟨2, _⟩ =>
        show 2048 + (((b.val * 2048 + t.val) * 16 + h.val) * 64 + d.val) % 1024 = 2 * 1024 + h.val * 64 + d.val
        omega)
  rw [e]
  exact v0_eq x wq b t (col 2 h d)

end Cert.ReferenceIdeal.RefValue

end
-- ==== Proof.RefScore.lean ====
/-
  The reference's scores and their row maxima, read at coordinates.

  The batched product of the query part with the key part over the sixty-four lanes, times the word of 1/8, is at
  (b, h, t, k) the score of query row t against key row k in head h. The reduction with a maximum body along the last
  axis from the word of -∞ is, at (b, h, t), the fold of max over the 2048 scores of the row; the further maximum with
  a broadcast -∞ changes nothing.
-/
import proofs.«122617_j58394375357204_2_alg».proof.Proof.RefProj

noncomputable section

open scoped BigOperators

namespace Cert.ReferenceIdeal.RefValue

open Idealize.ShloMosaic Idealize.ShloMosaic.ValueIdx Cert.ReferenceIdeal Cert.ReferenceIdeal.Read Cert.Attn

/-- The scaled lane product at (b, h, t, k) is the score. -/
theorem v12_eq (x : (⟨S4x2048x1024, .f32⟩ : BufTy).Contents (Elt Ideal)) (wq : (⟨S3072x1024, .f32⟩ : BufTy).Contents (Elt Ideal))
    (b : Fin 4) (h : Fin 16) (t k : Fin 2048) :
    val_main_v12 (F := Ideal) x wq (ix4 b h t k) = score (proj x wq) b h t k := by
  rw [val_main_v12_apply, val_main_v10_apply, val_main_v11_apply, val_main_cst_apply]
  unfold score scale
  simp only [Ideal.mulf_def, Ideal.ofBits_def]
  refine congrArg (· * Ideal.ofBits .f32 0x3E000000#32) (Finset.sum_congr rfl fun d _ => ?_)
  have e1 : lidx_main_v10 (ix4 b h t k) d = ix4 b h t d :=
    funext fun a => Fin.ext (by match a with | ⟨0, _⟩ => rfl | ⟨1, _⟩ => rfl | ⟨2, _⟩ => rfl | ⟨3, _⟩ => rfl)
  have e2 : ridx_main_v10 (ix4 b h t k) d = ix4 b h k d :=
    funext fun a => Fin.ext (by match a with | ⟨0, _⟩ => rfl | ⟨1, _⟩ => rfl | ⟨2, _⟩ => rfl | ⟨3, _⟩ => rfl)
  rw [e1, e2, v5_eq, v7_eq]

/-- The reduced index (b, h, t) with coordinate k put back on the last axis is (b, h, t, k). -/
theorem lift_last4 (hr : S4x16x2048x2048.Reduces [3] S4x16x2048) (b : Fin 4) (h : Fin 16) (t : Fin 2048)
    (k : Fin (S4x16x2048x2048.size 3)) : hr.lift (ix3 b h t) k = ix4 b h t (⟨k.val, k.isLt⟩ : Fin 2048) := by
  funext c; apply Fin.ext
  fin_cases c <;> rfl

/-- The word 0xFF800000 is -∞, the identity of max. -/
theorem max_ninf (y : EReal) : max (Ideal.ofBits .f32 0xFF800000#32) y = y := by
  simp [Ideal.ofBits, Ideal.ieee]

/-- A reduction with a maximum body along the last axis of a [4,16,2048,2048] array, from the word of -∞, is at (b, h, t)
    the fold of max over the row's 2048 entries. -/
theorem reduce_max_last4 (y : FVec Ideal S4x16x2048x2048 .f32) (init : S_.Idx → Ideal .f32)
    (hinit : ∀ i, init i = Ideal.ofBits .f32 0xFF800000#32)
    (h' : S4x16x2048x2048.ReducesTo [3] S4x16x2048) (hu : 0 < S_.numel) (b : Fin 4) (h : Fin 16) (t : Fin 2048) :
    Host.reduce FloatOps.maximumf y init h' hu (ix3 b h t)
      = (Finset.univ : Finset (Fin 2048)).fold max (Ideal.ofBits .f32 0xFF800000#32) (fun k => y (ix4 b h t k)) := by
  have hr : S4x16x2048x2048.Reduces [3] S4x16x2048 := by decide
  refine (Host.reduce_eq_fold_single FloatOps.maximumf y init h' hr hu (ix3 b h t)).trans ?_
  rw [hinit]
  have hf : (y ∘ hr.lift (ix3 b h t)) = fun k : Fin 2048 => y (ix4 b h t k) :=
    funext fun k => congrArg y (lift_last4 hr b h t k)
  exact congrArg (fun f => Finset.fold max (Ideal.ofBits .f32 0xFF800000#32) f (Finset.univ : Finset (Fin 2048))) hf

/-- The row maximum of the scores at (b, h, t). -/
theorem v15_eq (x : (⟨S4x2048x1024, .f32⟩ : BufTy).Contents (Elt Ideal)) (wq : (⟨S3072x1024, .f32⟩ : BufTy).Contents (Elt Ideal))
    (b : Fin 4) (h : Fin 16) (t : Fin 2048) :
    val_main_v15 (F := Ideal) x wq (ix3 b h t) = rowMax (proj x wq) b h t := by
  rw [val_main_v15_apply, val_main_v14_apply, val_main_cst_1_apply]
  simp only [Ideal.maximumf_def, Ideal.ofBits_def]
  rw [max_ninf]
  unfold val_main_v13
  generalize hy : val_main_v12 (F := Ideal) x wq = y
  refine (reduce_max_last4 y _ (fun i => rfl) _ _ b h t).trans ?_
  unfold rowMax ninf
  refine congrArg (fun f => Finset.fold max (Ideal.ofBits .f32 0xFF800000#32) f (Finset.univ : Finset (Fin 2048))) (funext fun k => ?_)
  rw [← hy, v12_eq]

end Cert.ReferenceIdeal.RefValue

end
-- ==== Proof.RefHead.lean ====
/-
  The reference's attention weights and head outputs, read at coordinates.

  A row maximum or row sum kept as a unit last axis and broadcast back reads, at (b, h, t, k), its value at (b, h, t).
  So the shifted score exponentiated is the exponential of the score minus its row's maximum; the sum along the last
  axis from the zero word is the row's sum; their quotient is the attention weight; and the batched product of the
  weights with the value part over the 2048 key rows is the head's output row.
-/
import proofs.«122617_j58394375357204_2_alg».proof.Proof.RefScore

noncomputable section

open scoped BigOperators

namespace Cert.ReferenceIdeal.RefValue

open Idealize.ShloMosaic Idealize.ShloMosaic.ValueIdx Cert.ReferenceIdeal Cert.ReferenceIdeal.Read Cert.Attn

/-- The shifted score, exponentiated, at (b, h, t, k). -/
theorem v19_eq (x : (⟨S4x2048x1024, .f32⟩ : BufTy).Contents (Elt Ideal)) (wq : (⟨S3072x1024, .f32⟩ : BufTy).Contents (Elt Ideal))
    (b : Fin 4) (h : Fin 16) (t k : Fin 2048) :
    val_main_v19 (F := Ideal) x wq (ix4 b h t k) = pexp (proj x wq) b h t k := by
  rw [val_main_v19_apply, val_main_v18_apply, val_main_v17_apply, val_main_v16_apply]
  have e : idx_main_v16 (idx_main_v17 (ix4 b h t k)) = ix3 b h t :=
    funext fun a => Fin.ext (by match a with | ⟨0, _⟩ => rfl | ⟨1, _⟩ => rfl | ⟨2, _⟩ => rfl)
  rw [e, v12_eq, v15_eq]
  simp only [Ideal.hostUnary_exp_def, Ideal.subf_def]
  rfl

/-- The sum of a row of exponentials at (b, h, t). -/
theorem v20_eq (x : (⟨S4x2048x1024, .f32⟩ : BufTy).Contents (Elt Ideal)) (wq : (⟨S3072x1024, .f32⟩ : BufTy).Contents (Elt Ideal))
    (b : Fin 4) (h : Fin 16) (t : Fin 2048) :
    val_main_v20 (F := Ideal) x wq (ix3 b h t) = rowSum (proj x wq) b h t := by
  rw [val_main_v20_apply, val_main_cst_2_apply]
  simp only [Ideal.ofBits_def]
  rw [Ideal.ofBits_zero_f32, zero_add]
  unfold rowSum
  refine Finset.sum_congr rfl fun k _ => ?_
  have e : idx_main_v20 (ix3 b h t) k = ix4 b h t k :=
    funext fun a => Fin.ext (by match a with | ⟨0, _⟩ => rfl | ⟨1, _⟩ => rfl | ⟨2, _⟩ => rfl | ⟨3, _⟩ => rfl)
  rw [e, v19_eq]

/-- The attention weight at (b, h, t, k). -/
theorem v23_eq (x : (⟨S4x2048x1024, .f32⟩ : BufTy).Contents (Elt Ideal)) (wq : (⟨S3072x1024, .f32⟩ : BufTy).Contents (Elt Ideal))
    (b : Fin 4) (h : Fin 16) (t k : Fin 2048) :
    val_main_v23 (F := Ideal) x wq (ix4 b h t k) = prob (proj x wq) b h t k := by
  rw [val_main_v23_apply, val_main_v22_apply, val_main_v21_apply]
  have e : idx_main_v21 (idx_main_v22 (ix4 b h t k)) = ix3 b h t :=
    funext fun a => Fin.ext (by match a with | ⟨0, _⟩ => rfl | ⟨1, _⟩ => rfl | ⟨2, _⟩ => rfl)
  rw [e, v19_eq, v20_eq]
  simp only [Ideal.hostDivf_def]
  rfl

/-- The head's output at (b, h, t, d): the weights applied to the value rows. -/
theorem v24_eq (x : (⟨S4x2048x1024, .f32⟩ : BufTy).Contents (Elt Ideal)) (wq : (⟨S3072x1024, .f32⟩ : BufTy).Contents (Elt Ideal))
    (b : Fin 4) (h : Fin 16) (t : Fin 2048) (d : Fin 64) :
    val_main_v24 (F := Ideal) x wq (ix4 b h t d) = head (proj x wq) b t h d := by
  rw [val_main_v24_apply]
  unfold head
  refine Finset.sum_congr rfl fun k _ => ?_
  have e1 : lidx_main_v24 (ix4 b h t d) k = ix4 b h t k :=
    funext fun a => Fin.ext (by match a with | ⟨0, _⟩ => rfl | ⟨1, _⟩ => rfl | ⟨2, _⟩ => rfl | ⟨3, _⟩ => rfl)
  have e2 : ridx_main_v24 (ix4 b h t d) k = ix4 b h k d :=
    funext fun a => Fin.ext (by match a with | ⟨0, _⟩ => rfl | ⟨1, _⟩ => rfl | ⟨2, _⟩ => rfl | ⟨3, _⟩ => rfl)
  rw [e1, e2, v23_eq, v9_eq]

end Cert.ReferenceIdeal.RefValue

end
-- ==== Proof.RefValue.lean ====
/-
  The reference's result is the specification.

  The head outputs with the head axis moved back behind the row axis and the two last axes merged read, at (b, t, c),
  lane c mod 64 of head c / 64: the mixed row. The last product with the transposed second weight is then, at (b, t, e),
  Σ_c mix[b,t,c]·wp[e,c], which is the specification's result.
-/
import proofs.«122617_j58394375357204_2_alg».proof.Proof.RefHead

noncomputable section

open scoped BigOperators

namespace Cert.ReferenceIdeal.RefValue

open Idealize.ShloMosaic Idealize.ShloMosaic.ValueIdx Cert.ReferenceIdeal Cert.ReferenceIdeal.Read Cert.Attn

/-- The merged heads at (b, t, c). -/
theorem v26_eq (x : (⟨S4x2048x1024, .f32⟩ : BufTy).Contents (Elt Ideal)) (wq : (⟨S3072x1024, .f32⟩ : BufTy).Contents (Elt Ideal))
    (b : Fin 4) (t : Fin 2048) (c : Fin 1024) :
    val_main_v26 (F := Ideal) x wq (ix3 b t c) = mix (proj x wq) b t c := by
  rw [val_main_v26_apply, val_main_v25_apply]
  have hb := b.isLt
  have ht := t.isLt
  have hc := c.isLt
  have e : idx_main_v25 (idx_main_v26 (ix3 b t c))
      = ix4 b (⟨c.val / 64, by omega⟩ : Fin 16) t (⟨c.val % 64, by omega⟩ : Fin 64) :=
    funext fun a => Fin.ext (by
      match a with
      | ⟨0, _⟩ =>
        show ((b.val * 2048 + t.val) * 1024 + c.val) / 2097152 = b.val
        omega
      | ⟨1, _⟩ =>
        show ((b.val * 2048 + t.val) * 1024 + c.val) / 64 % 16 = c.val / 64
        omega
      | ⟨2, _⟩ =>
        show ((b.val * 2048 + t.val) * 1024 + c.val) / 1024 % 2048 = t.val
        omega
      | ⟨3, _⟩ =>
        show ((b.val * 2048 + t.val) * 1024 + c.val) % 64 = c.val % 64
        omega)
  rw [e, v24_eq]
  rfl

/-- The reference's result is the specification. -/
theorem result_eq (x : (⟨S4x2048x1024, .f32⟩ : BufTy).Contents (Elt Ideal)) (wq : (⟨S3072x1024, .f32⟩ : BufTy).Contents (Elt Ideal))
    (wp : (⟨S1024x1024, .f32⟩ : BufTy).Contents (Elt Ideal)) :
    val_main_v27 (F := Ideal) x wq wp = Cert.Attn.out x wq wp := by
  funext i
  obtain ⟨b, t, e, rfl⟩ : ∃ (b : Fin 4) (t : Fin 2048) (e : Fin 1024), i = ix3 b t e := ⟨i 0, i 1, i 2, eq_ix3 i⟩
  rw [val_main_v27_apply]
  show _ = ∑ c : Fin 1024, mix (proj x wq) b t c * wp (ix2 e c)
  refine Finset.sum_congr rfl fun c _ => ?_
  have e1 : lidx_main_v27 (ix3 b t e) c = ix3 b t c :=
    funext fun a => Fin.ext (by match a with | ⟨0, _⟩ => rfl | ⟨1, _⟩ => rfl | ⟨2, _⟩ => rfl)
  have e2 : ridx_main_v27 (ix3 b t e) c = ix2 e c :=
    funext fun a => Fin.ext (by match a with | ⟨0, _⟩ => rfl | ⟨1, _⟩ => rfl)
  rw [e1, e2, v26_eq]

end Cert.ReferenceIdeal.RefValue

end
-- ==== Proof.lean ====
/-
  A multi-head self-attention computed by three kernel launches — the query/key/value projection, the per-head softmax
  attention, the output projection — against the same computation written as array operations.

  Over the extended reals the two are one function of the three arguments (Proof/Spec.lean): each projection is a row
  product with the weight's rows; a head's scores are lane products times 1/8, shifted by the row maximum, exponentiated
  and divided by the row sum, then applied to the value rows; the heads sit side by side. No law beyond the order of
  finite sums is used, so the inputs' finiteness is never opened.

  The frames: each program terminates from any memory with zero counters, faults nowhere and leaves its arguments as
  launched — for the two kernel programs by the run of their three regions and four reshapes (Proof/RunB.lean and its
  word-level counterpart), for the reference by its run as a list of array operations. The idealization rewrote nothing,
  so there is nothing to preserve. The value: the idealized kernel's result buffer holds the specification of its
  arguments (Proof/Value.lean), and so does the reference's (Proof/RefValue.lean).
-/
import proofs.«122617_j58394375357204_2_alg».proof.Defs
import proofs.«122617_j58394375357204_2_alg».proof.Proof.Gen.Kernel
import proofs.«122617_j58394375357204_2_alg».proof.Proof.Gen.KernelIdeal
import proofs.«122617_j58394375357204_2_alg».proof.Proof.Gen.ReferenceIdeal
import proofs.«122617_j58394375357204_2_alg».proof.Proof.Gen.ReferenceIdeal.Run
import proofs.«122617_j58394375357204_2_alg».proof.Proof.Gen.ReferenceIdeal.Read
import proofs.«122617_j58394375357204_2_alg».proof.Proof.Gen.Pre_finite_inputs
import proofs.«122617_j58394375357204_2_alg».proof.Proof.KRunB
import proofs.«122617_j58394375357204_2_alg».proof.Proof.RunB
import proofs.«122617_j58394375357204_2_alg».proof.Proof.Value
import proofs.«122617_j58394375357204_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ =>
  (θ_run Cert.Kernel.defs _ _).mono (fun _ h c => (h c).2) (Cert.Kernel.Hand.run_main (F := Bits) m ρ)

theorem frame_ki : Cert.frame_KernelIdeal := fun m ρ _ =>
  (θ_run Cert.KernelIdeal.defs _ _).mono (fun _ h c => (h c).2) (Cert.KernelIdeal.Hand.run_main (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

/-- Both idealized programs, from memories agreeing on the arguments, end with the specification of the arguments in
    their result buffers. -/
theorem algebraic : Cert.algebraic_KernelIdeal_ReferenceIdeal := by
  intro m ρ m' ρ' _ hagree
  refine ⟨fun c => Cert.Attn.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Hand.value_eq m ρ c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v27_eq, Cert.ReferenceIdeal.RefValue.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
